-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S256x128 : Shape := ⟨2, ![256, 128]⟩
abbrev S256 : Shape := ⟨1, ![256]⟩
abbrev S50x256 : Shape := ⟨2, ![50, 256]⟩
abbrev S50 : Shape := ⟨1, ![50]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S50x256 : S_.BroadcastsInDim S50x256 (![] : Fin 0 → Fin S50x256.rank)
  reducesTo_S50x256_S_d0_1 : S50x256.ReducesTo [0, 1] S_
  bcast_S_S50 : S_.BroadcastsInDim S50 (![] : Fin 0 → Fin S50.rank)
  reducesTo_S50_S_d0 : S50.ReducesTo [0] S_

variable [Facts]

def fn_part1 {F : FTy → Type} [FloatOps F] (main_arg5 : FVec F S50x256 .f32) (main_arg6 : FVec F S50 .f32) (main_arg7 : FVec F S50x256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S50x256 .f32 := Host.absf main_arg5
  let main_cst_6 : FVec F S_ .f32 := constant S_ .f32 0x7F800000#32
  let main_v20 : FVec F S50x256 .f32 := broadcastInDim S50x256 ![] bcast_S_S50x256 main_cst_6
  let main_v21 : IVec S50x256 1 := cmpf .olt main_v19 main_v20
  let main_c_7 : IVec S_ 1 := constantI S_ 1 1#1
  let main_v22 : IVec S_ 1 := (fun x v => Host.reduce IntOp.andi x v reducesTo_S50x256_S_d0_1 h_S_) main_v21 main_c_7
  let main_v23 : IVec S_ 1 := andi main_v18 main_v22
  let main_v24 : FVec F S50 .f32 := Host.absf main_arg6
  let main_cst_8 : FVec F S_ .f32 := constant S_ .f32 0x7F800000#32
  let main_v25 : FVec F S50 .f32 := broadcastInDim S50 ![] bcast_S_S50 main_cst_8
  let main_v26 : IVec S50 1 := cmpf .olt main_v24 main_v25
  let main_c_9 : IVec S_ 1 := constantI S_ 1 1#1
  let main_v27 : IVec S_ 1 := (fun x v => Host.reduce IntOp.andi x v reducesTo_S50_S_d0 h_S_) main_v26 main_c_9
  let main_v28 : IVec S_ 1 := andi main_v23 main_v27
  let main_v29 : FVec F S50x256 .f32 := Host.absf main_arg7
  let main_cst_10 : FVec F S_ .f32 := constant S_ .f32 0x7F800000#32
  let main_v30 : FVec F S50x256 .f32 := broadcastInDim S50x256 ![] bcast_S_S50x256 main_cst_10
  let main_v31 : IVec S50x256 1 := cmpf .olt main_v29 main_v30
  let main_c_11 : IVec S_ 1 := constantI S_ 1 1#1
  let main_v32 : IVec S_ 1 := (fun x v => Host.reduce IntOp.andi x v reducesTo_S50x256_S_d0_1 h_S_) main_v31 main_c_11
  let main_v33 : IVec S_ 1 := andi main_v28 main_v32
  main_v33

def fn {F : FTy → Type} [FloatOps F] (main_arg0 : FVec F S100000x128 .f32) (main_arg1 : IVec S2x640000 32) (main_arg2 : FVec F S256x128 .f32) (main_arg3 : FVec F S256 .f32) (main_arg4 : FVec F S256x128 .f32) (main_arg5 : FVec F S50x256 .f32) (main_arg6 : FVec F S50 .f32) (main_arg7 : FVec F S50x256 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_v13 main_v16
-- ==== Kernel.lean ====
abbrev S100000x128 : Shape := ⟨2, ![100000, 128]⟩
abbrev S2x640000 : Shape := ⟨2, ![2, 640000]⟩
abbrev S256x128 : Shape := ⟨2, ![256, 128]⟩
abbrev S256 : Shape := ⟨1, ![256]⟩
abbrev S50x256 : Shape := ⟨2, ![50, 256]⟩
abbrev S50 : Shape := ⟨1, ![50]⟩
abbrev S1x640000 : Shape := ⟨2, ![1, 640000]⟩
abbrev S640000 : Shape := ⟨1, ![640000]⟩
abbrev S128x256 : Shape := ⟨2, ![128, 256]⟩
abbrev S256x50 : Shape := ⟨2, ![256, 50]⟩
abbrev S_ : Shape := ⟨0, ![]⟩
abbrev S640000x1 : Shape := ⟨2, ![640000, 1]⟩
abbrev S640000x128 : Shape := ⟨2, ![640000, 128]⟩
abbrev S1x256 : Shape := ⟨2, ![1, 256]⟩
abbrev S100000x256 : Shape := ⟨2, ![100000, 256]⟩
abbrev S10000x128 : Shape := ⟨2, ![10000, 128]⟩
abbrev S10000x256 : Shape := ⟨2, ![10000, 256]⟩
abbrev S100000x50 : Shape := ⟨2, ![100000, 50]⟩
abbrev S10000x50 : Shape := ⟨2, ![10000, 50]⟩
abbrev S640000x50 : Shape := ⟨2, ![640000, 50]⟩
abbrev S1x50 : Shape := ⟨2, ![1, 50]⟩

abbrev nBuf : Space → Nat
  | .hbm => 52
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S50x256, .f32⟩
  | .hbm, ⟨6, _⟩ => ⟨S50, .f32⟩
  | .hbm, ⟨7, _⟩ => ⟨S50x256, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S128x256, .f32⟩
  | .hbm, ⟨13, _⟩ => ⟨S128x256, .f32⟩
  | .hbm, ⟨14, _⟩ => ⟨S256x50, .f32⟩
  | .hbm, ⟨15, _⟩ => ⟨S256x50, .f32⟩
  | .hbm, ⟨16, _⟩ => ⟨S100000x128, .bf16⟩
  | .hbm, ⟨17, _⟩ => ⟨S_, .i32⟩
  | .hbm, ⟨18, _⟩ => ⟨S640000, .i32⟩
  | .hbm, ⟨19, _⟩ => ⟨S640000, .i1⟩
  | .hbm, ⟨20, _⟩ => ⟨S_, .i32⟩
  | .hbm, ⟨21, _⟩ => ⟨S640000, .i32⟩
  | .hbm, ⟨22, _⟩ => ⟨S640000, .i32⟩
  | .hbm, ⟨23, _⟩ => ⟨S640000, .i32⟩
  | .hbm, ⟨24, _⟩ => ⟨S640000x1, .i32⟩
  | .hbm, ⟨25, _⟩ => ⟨S640000x128, .bf16⟩
  | .hbm, ⟨26, _⟩ => ⟨S640000x128, .f32⟩
  | .hbm, ⟨27, _⟩ => ⟨S_, .f32⟩
  | .hbm, ⟨28, _⟩ => ⟨S100000x128, .f32⟩
  | .hbm, ⟨29, _⟩ => ⟨S640000x1, .i32⟩
  | .hbm, ⟨30, _⟩ => ⟨S100000x128, .f32⟩
  | .hbm, ⟨31, _⟩ => ⟨S1x256, .f32⟩
  | .hbm, ⟨32, _⟩ => ⟨S100000x256, .f32⟩
  | .hbm, ⟨33, _⟩ => ⟨S100000x50, .f32⟩
  | .hbm, ⟨34, _⟩ => ⟨S100000x50, .f32⟩
  | .hbm, ⟨35, _⟩ => ⟨S100000x50, .bf16⟩
  | .hbm, ⟨36, _⟩ => ⟨S_, .i32⟩
  | .hbm, ⟨37, _⟩ => ⟨S640000, .i32⟩
  | .hbm, ⟨38, _⟩ => ⟨S640000, .i1⟩
  | .hbm, ⟨39, _⟩ => ⟨S_, .i32⟩
  | .hbm, ⟨40, _⟩ => ⟨S640000, .i32⟩
  | .hbm, ⟨41, _⟩ => ⟨S640000, .i32⟩
  | .hbm, ⟨42, _⟩ => ⟨S640000, .i32⟩
  | .hbm, ⟨43, _⟩ => ⟨S640000x1, .i32⟩
  | .hbm, ⟨44, _⟩ => ⟨S640000x50, .bf16⟩
  | .hbm, ⟨45, _⟩ => ⟨S640000x50, .f32⟩
  | .hbm, ⟨46, _⟩ => ⟨S_, .f32⟩
  | .hbm, ⟨47, _⟩ => ⟨S100000x50, .f32⟩
  | .hbm, ⟨48, _⟩ => ⟨S640000x1, .i32⟩
  | .hbm, ⟨49, _⟩ => ⟨S100000x50, .f32⟩
  | .hbm, ⟨50, _⟩ => ⟨S1x50, .f32⟩
  | .hbm, ⟨51, _⟩ => ⟨S100000x50, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x256, .f32⟩
  | .local _ .vmem, ⟨5, _⟩ => ⟨S1x256, .f32⟩
  | .local _ .vmem, ⟨6, _⟩ => ⟨S128x256, .f32⟩
  | .local _ .vmem, ⟨7, _⟩ => ⟨S10000x256, .f32⟩
  | .local _ .vmem, ⟨8, _⟩ => ⟨S10000x256, .f32⟩
  | .local _ .vmem, ⟨9, _⟩ => ⟨S10000x256, .f32⟩
  | .local _ .vmem, ⟨10, _⟩ => ⟨S10000x256, .f32⟩
  | .local _ .vmem, ⟨11, _⟩ => ⟨S256x50, .f32⟩
  | .local _ .vmem, ⟨12, _⟩ => ⟨S256x50, .f32⟩
  | .local _ .vmem, ⟨13, _⟩ => ⟨S10000x50, .f32⟩
  | .local _ .vmem, ⟨14, _⟩ => ⟨S10000x50, .f32⟩
  | .local _ .vmem, ⟨15, _⟩ => ⟨S10000x50, .f32⟩
  | .local _ .vmem, ⟨16, _⟩ => ⟨S10000x50, .f32⟩
  | .local _ .vmem, ⟨17, _⟩ => ⟨S10000x50, .f32⟩
  | .local _ .vmem, ⟨18, _⟩ => ⟨S10000x50, .f32⟩
  | .local _ .vmem, ⟨19, _⟩ => ⟨S10000x50, .f32⟩
  | .local _ .vmem, ⟨20, _⟩ => ⟨S10000x50, .f32⟩
  | .local _ .vmem, ⟨21, _⟩ => ⟨S1x50, .f32⟩
  | .local _ .vmem, ⟨22, _⟩ => ⟨S10000x50, .f32⟩
  | .local _ .vmem, ⟨23, _⟩ => ⟨S10000x50, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22_0 : Ref sig .tc := ⟨.hbm, 33, rfl⟩
abbrev main_v22_1 : Ref sig .tc := ⟨.hbm, 34, rfl⟩
abbrev main_v23 : Ref sig .tc := ⟨.hbm, 35, rfl⟩
abbrev main_c_1 : Ref sig .tc := ⟨.hbm, 36, rfl⟩
abbrev main_v24 : Ref sig .tc := ⟨.hbm, 37, rfl⟩
abbrev main_v25 : Ref sig .tc := ⟨.hbm, 38, rfl⟩
abbrev main_c_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14
abbrev cc1_sem4_0 : DmaSem sig := 15
abbrev cc1_sem4_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x50 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x50 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x50 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S10000x50 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x50 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x50 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x50 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x50 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  transposes_S256x128_S128x256_1_0 : S256x128.Transposes [1, 0] S128x256
  transposes_S50x256_S256x50_1_0 : S50x256.Transposes [1, 0] S256x50
  bitsLt_bf16_f32 : FTy.bits .bf16 < FTy.bits .f32
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  shapeCasts_S256_S1x256 : S256.ShapeCasts S1x256
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S10000x256 : S1x256.Broadcasts S10000x256
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S256x50_S256x50_0_0 : ∀ a, (![0, 0] : Fin 2 → Nat) a + S256x50.size a ≤ S256x50.size a
  h_S256x50 : 0 < S256x50.numel
  shapeCasts_S256x50_S256x50 : S256x50.ShapeCasts S256x50
  inb_S10000x50_S10000x50_0_0 : ∀ a, (![0, 0] : Fin 2 → Nat) a + S10000x50.size a ≤ S10000x50.size a
  h_S10000x50 : 0 < S10000x50.numel
  bcast_S_S100000x50 : S_.BroadcastsInDim S100000x50 (![] : Fin 0 → Fin S100000x50.rank)
  shapeCasts_S50_S1x50 : S50.ShapeCasts S1x50
  shapeCasts_S10000x50_S10000x50 : S10000x50.ShapeCasts S10000x50
  inb_S1x50_S1x50_0_0 : ∀ a, (![0, 0] : Fin 2 → Nat) a + S1x50.size a ≤ S1x50.size a
  h_S1x50 : 0 < S1x50.numel
  shapeCasts_S1x50_S1x50 : S1x50.ShapeCasts S1x50
  broadcasts_S1x50_S10000x50 : S1x50.Broadcasts S10000x50
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S10000x128_S128x256_S10000x256_1_0_0_1_n_n_wf : DotDims.WF S10000x128 S128x256 S10000x256 [1] [0] [0] [1] [] []
  dot_S10000x256_S256x50_S10000x50_1_0_0_1_n_n_wf : DotDims.WF S10000x256 S256x50 S10000x50 [1] [0] [0] [1] [] []
  gather_S100000x50_S640000x1_S640000x50_1_0_n_n_0_1_150_wf : GatherDims.WF S100000x50 S640000x1 S640000x50 [1] [0] [] [0] [] 1 ![1, 50]
  scatter_S100000x50_S640000x1_S640000x50_1_0_0_1_wf : ScatterDims.WF S100000x50 S640000x1 S640000x50 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x256.size a ≤ S100000x256.size a
  hwx0_5 : ∀ i : grid0.Coords, EltTy.bits .f32 = 32 ∨ (Rect.block (s := S100000x256) S10000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x256.size a ≤ S100000x256.size a
  hwx1_0 : ∀ i : grid1.Coords, EltTy.bits .f32 = 32 ∨ (Rect.block (s := S100000x256) S10000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x50.size a ≤ S256x50.size a
  hwx1_1 : ∀ i : grid1.Coords, EltTy.bits .f32 = 32 ∨ (Rect.block (s := S256x50) S256x50.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x50.size a ≤ S256x50.size a
  hwx1_2 : ∀ i : grid1.Coords, EltTy.bits .f32 = 32 ∨ (Rect.block (s := S256x50) S256x50.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x50.size a ≤ S100000x50.size a
  hwx1_3 : ∀ i : grid1.Coords, EltTy.bits .f32 = 32 ∨ (Rect.block (s := S100000x50) S10000x50.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x50.size a ≤ S100000x50.size a
  hwx1_4 : ∀ i : grid1.Coords, EltTy.bits .f32 = 32 ∨ (Rect.block (s := S100000x50) S10000x50.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x50.size a ≤ S100000x50.size a
  hwx2_0 : ∀ i : grid2.Coords, EltTy.bits .f32 = 32 ∨ (Rect.block (s := S100000x50) S10000x50.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x50.size a ≤ S100000x50.size a
  hwx2_1 : ∀ i : grid2.Coords, EltTy.bits .f32 = 32 ∨ (Rect.block (s := S100000x50) S10000x50.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x50.size a ≤ S1x50.size a
  hwx2_2 : ∀ i : grid2.Coords, EltTy.bits .f32 = 32 ∨ (Rect.block (s := S1x50) S1x50.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x50.size a ≤ S100000x50.size a
  hwx2_3 : ∀ i : grid2.Coords, EltTy.bits .f32 = 32 ∨ (Rect.block (s := S100000x50) S10000x50.size (cc2_transform_3 i) (hinb2_3 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S10000x256_S256x50_S10000x50_1_0_0_1_n_n : DotDims S10000x256 S256x50 S10000x50 where
  lhsContracting := [1]
  rhsContracting := [0]
  lhsNonContracting := [0]
  rhsNonContracting := [1]
  lhsBatch := []
  rhsBatch := []
  wf := dot_S10000x256_S256x50_S10000x50_1_0_0_1_n_n_wf
def gather_S100000x50_S640000x1_S640000x50_1_0_n_n_0_1_150 : GatherDims S100000x50 S640000x1 S640000x50 where
  offsetDims := [1]
  collapsedSliceDims := [0]
  operandBatchingDims := []
  startIndicesBatchingDims := []
  startIndexMap := [0]
  indexVectorDim := 1
  sliceSizes := ![1, 50]
  wf := gather_S100000x50_S640000x1_S640000x50_1_0_n_n_0_1_150_wf
def scatter_S100000x50_S640000x1_S640000x50_1_0_0_1 : ScatterDims S100000x50 S640000x1 S640000x50 where
  updateWindowDims := [1]
  insertedWindowDims := [0]
  scatterDimsToOperandDims := [0]
  indexVectorDim := 1
  wf := scatter_S100000x50_S640000x1_S640000x50_1_0_0_1_wf

abbrev win0_0 : Pipeline.Window sig grid0 :=
  Pipeline.Window.ofSpec (Memref.whole main_v19) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S10000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v21) S10000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S256x50.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S256x50.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22_0) S10000x50.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v22_1) S10000x50.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v34) S10000x50.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v22_1) S10000x50.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v35) S1x50.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v36) S10000x50.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S256x128 : Shape := ⟨2, ![256, 128]⟩
abbrev S256 : Shape := ⟨1, ![256]⟩
abbrev S50x256 : Shape := ⟨2, ![50, 256]⟩
abbrev S50 : Shape := ⟨1, ![50]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S128x256 : Shape := ⟨2, ![128, 256]⟩
abbrev S100000x256 : Shape := ⟨2, ![100000, 256]⟩
abbrev S1x256 : Shape := ⟨2, ![1, 256]⟩
abbrev S640000x256 : Shape := ⟨2, ![640000, 256]⟩
abbrev S256x50 : Shape := ⟨2, ![256, 50]⟩
abbrev S100000x50 : Shape := ⟨2, ![100000, 50]⟩
abbrev S1x50 : Shape := ⟨2, ![1, 50]⟩

abbrev nBuf : Space → Nat
  | .hbm => 61
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S50x256, .f32⟩
  | .hbm, ⟨6, _⟩ => ⟨S50, .f32⟩
  | .hbm, ⟨7, _⟩ => ⟨S50x256, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S100000x128, .f32⟩
  | .hbm, ⟨23, _⟩ => ⟨S640000x1, .i32⟩
  | .hbm, ⟨24, _⟩ => ⟨S100000x128, .f32⟩
  | .hbm, ⟨25, _⟩ => ⟨S128x256, .f32⟩
  | .hbm, ⟨26, _⟩ => ⟨S100000x256, .f32⟩
  | .hbm, ⟨27, _⟩ => ⟨S1x256, .f32⟩
  | .hbm, ⟨28, _⟩ => ⟨S100000x256, .f32⟩
  | .hbm, ⟨29, _⟩ => ⟨S100000x256, .f32⟩
  | .hbm, ⟨30, _⟩ => ⟨S128x256, .f32⟩
  | .hbm, ⟨31, _⟩ => ⟨S100000x256, .f32⟩
  | .hbm, ⟨32, _⟩ => ⟨S100000x256, .f32⟩
  | .hbm, ⟨33, _⟩ => ⟨S_, .f32⟩
  | .hbm, ⟨34, _⟩ => ⟨S100000x256, .f32⟩
  | .hbm, ⟨35, _⟩ => ⟨S100000x256, .f32⟩
  | .hbm, ⟨36, _⟩ => ⟨S1x640000, .i32⟩
  | .hbm, ⟨37, _⟩ => ⟨S640000, .i32⟩
  | .hbm, ⟨38, _⟩ => ⟨S1x640000, .i32⟩
  | .hbm, ⟨39, _⟩ => ⟨S640000, .i32⟩
  | .hbm, ⟨40, _⟩ => ⟨S_, .i32⟩
  | .hbm, ⟨41, _⟩ => ⟨S640000, .i32⟩
  | .hbm, ⟨42, _⟩ => ⟨S640000, .i1⟩
  | .hbm, ⟨43, _⟩ => ⟨S_, .i32⟩
  | .hbm, ⟨44, _⟩ => ⟨S640000, .i32⟩
  | .hbm, ⟨45, _⟩ => ⟨S640000, .i32⟩
  | .hbm, ⟨46, _⟩ => ⟨S640000, .i32⟩
  | .hbm, ⟨47, _⟩ => ⟨S640000x1, .i32⟩
  | .hbm, ⟨48, _⟩ => ⟨S640000x256, .f32⟩
  | .hbm, ⟨49, _⟩ => ⟨S_, .f32⟩
  | .hbm, ⟨50, _⟩ => ⟨S100000x256, .f32⟩
  | .hbm, ⟨51, _⟩ => ⟨S640000x1, .i32⟩
  | .hbm, ⟨52, _⟩ => ⟨S100000x256, .f32⟩
  | .hbm, ⟨53, _⟩ => ⟨S256x50, .f32⟩
  | .hbm, ⟨54, _⟩ => ⟨S100000x50, .f32⟩
  | .hbm, ⟨55, _⟩ => ⟨S1x50, .f32⟩
  | .hbm, ⟨56, _⟩ => ⟨S100000x50, .f32⟩
  | .hbm, ⟨57, _⟩ => ⟨S100000x50, .f32⟩
  | .hbm, ⟨58, _⟩ => ⟨S256x50, .f32⟩
  | .hbm, ⟨59, _⟩ => ⟨S100000x50, .f32⟩
  | .hbm, ⟨60, _⟩ => ⟨S100000x50, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_1 : Ref sig .tc := ⟨.hbm, 40, rfl⟩
abbrev main_v27 : Ref sig .tc := ⟨.hbm, 41, rfl⟩
abbrev main_v28 : Ref sig .tc := ⟨.hbm, 42, rfl⟩
abbrev main_c_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_3 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  transposes_S256x128_S128x256_1_0 : S256x128.Transposes [1, 0] S128x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  transposes_S50x256_S256x50_1_0 : S50x256.Transposes [1, 0] S256x50
  bcast_S50_S1x50_1 : S50.BroadcastsInDim S1x50 (![1] : Fin 1 → Fin S1x50.rank)
  bcast_S1x50_S100000x50_0_1 : S1x50.BroadcastsInDim S100000x50 (![0, 1] : Fin 2 → Fin S100000x50.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S100000x128_S128x256_S100000x256_1_0_0_1_n_n_wf : DotDims.WF S100000x128 S128x256 S100000x256 [1] [0] [0] [1] [] []
  gather_S100000x256_S640000x1_S640000x256_1_0_n_n_0_1_1256_wf : GatherDims.WF S100000x256 S640000x1 S640000x256 [1] [0] [] [0] [] 1 ![1, 256]
  scatter_S100000x256_S640000x1_S640000x256_1_0_0_1_wf : ScatterDims.WF S100000x256 S640000x1 S640000x256 [1] [0] [0] 1
  dot_S100000x256_S256x50_S100000x50_1_0_0_1_n_n_wf : DotDims.WF S100000x256 S256x50 S100000x50 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S640000x1_S640000x256_1_0_n_n_0_1_1256 : GatherDims S100000x256 S640000x1 S640000x256 where
  offsetDims := [1]
  collapsedSliceDims := [0]
  operandBatchingDims := []
  startIndicesBatchingDims := []
  startIndexMap := [0]
  indexVectorDim := 1
  sliceSizes := ![1, 256]
  wf := gather_S100000x256_S640000x1_S640000x256_1_0_n_n_0_1_1256_wf
def scatter_S100000x256_S640000x1_S640000x256_1_0_0_1 : ScatterDims S100000x256 S640000x1 S640000x256 where
  updateWindowDims := [1]
  insertedWindowDims := [0]
  scatterDimsToOperandDims := [0]
  indexVectorDim := 1
  wf := scatter_S100000x256_S640000x1_S640000x256_1_0_0_1_wf
def dot_S100000x256_S256x50_S100000x50_1_0_0_1_n_n : DotDims S100000x256 S256x50 S100000x50 where
  lhsContracting := [1]
  rhsContracting := [0]
  lhsNonContracting := [0]
  rhsNonContracting := [1]
  lhsBatch := []
  rhsBatch := []
  wf := dot_S100000x256_S256x50_S100000x50_1_0_0_1_n_n_wf

class Facts : Prop extends Facts₀ where

variable [Facts]
-- ==== Proof.NamedRun.lean ====
/-
  The kernel program's run with its result named.

  Every weakly fair execution of the program terminates without a fault; at the end the result buffer holds what
  the last boundary of the run's fold of buffer contents holds there (the contents after the third region), and the eight argument
  arrays are as launched. This is the run of the program's five segments — host operations, the first two regions,
  host operations, the third region — from the launch memory, with the last thread state read against the final
  memory at the result buffer as well as at the arguments.
-/
import proofs.«135750_j32238024524264_2_alg».proof.Proof.Gen.KernelIdeal.Frame

set_option maxRecDepth 16384

noncomputable section

namespace Cert.KernelIdeal.NamedRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer at the last boundary's contents, the arguments as launched. -/
theorem run : θ_run defs (onTc (τ := τ) (main (F := F))) ⟨m, fun _ => 0, ρ⟩ (fun r => ∀ c : Dev nD,
      r.2.mem ((c.tc : Thread nD τ).loc main_v36) = W5 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v36 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.NamedRun

end
-- ==== Proof.LibPlainDot.lean ====
/-
  Two general facts about finite sums, used where one program contracts a long axis in one product and another
  contracts the same axis block by block.

  * A sum over `Fin (n + n + n)` (or `Fin (n + n)`) is the sum of the sums over its consecutive blocks of
    length `n`. This holds in every commutative additive monoid, so in particular on the extended reals, where
    no cancellation or distributivity is available at the infinities and none is needed here.
  * A matrix product with plain dimension numbers (rows by `K` times `K` by columns, nothing batched), accumulated
    into the zero matrix and read at exact arithmetic, is at the entry `(p, c)` the sum over the contracted
    coordinate `a` of the left factor at `(p, a)` times the right factor at `(a, c)`.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- A sum over three consecutive blocks of `n` indices is the sum of the three block sums. -/
theorem sum_three_blocks {M : Type*} [AddCommMonoid M] (n : Nat) (f : Fin (n + n + n) → M) :
    ∑ a, f a = (∑ a : Fin n, f ⟨a.val, by omega⟩ + ∑ a : Fin n, f ⟨n + a.val, by omega⟩)
      + ∑ a : Fin n, f ⟨n + n + a.val, by omega⟩ := by
  rw [Fin.sum_univ_add, Fin.sum_univ_add]
  rfl

/-- A sum over two consecutive blocks of `n` indices is the sum of the two block sums. -/
theorem sum_two_blocks {M : Type*} [AddCommMonoid M] (n : Nat) (f : Fin (n + n) → M) :
    ∑ a, f a = ∑ a : Fin n, f ⟨a.val, by omega⟩ + ∑ a : Fin n, f ⟨n + a.val, by omega⟩ := by
  rw [Fin.sum_univ_add]
  rfl

/-- The blocks of 64 inside 192 indices. -/
theorem sum_fin192 {M : Type*} [AddCommMonoid M] (f : Fin 192 → M) :
    ∑ a, f a = (∑ a : Fin 64, f ⟨a.val, by omega⟩ + ∑ a : Fin 64, f ⟨64 + a.val, by omega⟩)
      + ∑ a : Fin 64, f ⟨128 + a.val, by omega⟩ :=
  sum_three_blocks 64 f

/-- The blocks of 64 inside 128 indices. -/
theorem sum_fin128 {M : Type*} [AddCommMonoid M] (f : Fin 128 → M) :
    ∑ a, f a = ∑ a : Fin 64, f ⟨a.val, by omega⟩ + ∑ a : Fin 64, f ⟨64 + a.val, by omega⟩ :=
  sum_two_blocks 64 f

/-- A plain `R × K` by `K × C` product accumulated into the zero matrix, read at `(p, c)` in exact arithmetic:
    `∑ a, l (p, a) * r (a, c)`. The hypotheses `hl0 … hr1` say the dimension numbers are the plain ones: the left
    factor's index takes its row from the output index and its column from the contraction index, the right factor's
    its row from the contraction index and its column from the output index. -/
theorem matmul_zero_plain {R K C : Nat} {φ₁ φ₂ : FTy}
    (D : DotDims ⟨2, ![R, K]⟩ ⟨2, ![K, C]⟩ ⟨2, ![R, C]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (prec : Option ContractPrecision) (l : FVec Ideal ⟨2, ![R, K]⟩ φ₁) (r : FVec Ideal ⟨2, ![K, C]⟩ φ₂)
    (p : Fin R) (c : Fin C) :
    FloatOps.matmul D prec l r (constant ⟨2, ![R, C]⟩ .f32 0x00000000#32) (ix2 p c)
      = ∑ a : Fin K, l (ix2 p a) * r (ix2 a c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainDot

end
-- ==== Proof.BodyEntries.lean ====
/-
  The three kernel bodies read at one entry, in exact arithmetic.

  * The first body takes a block of 10000 rows of the aggregated features `a` and of the node features `x`, the two
    layer-1 weight matrices already transposed to 128 × 256, and the bias as one row, and stores
      max ((∑_f a(p,f) · wl(f,k) + ∑_f x(p,f) · wr(f,k)) + b(k), 0).
  * The second body stores the two products ∑_k h(p,k) · w(k,c) of a block of hidden rows with the two 256 × 50 matrices.
  * The third body stores (s(p,c) + q(p,c)) + b(c).

  Each matrix product is accumulated into the zero matrix, so on the extended reals it is the plain finite sum of
  products; nothing is cancelled and no finiteness of the entries is used here.
-/
import proofs.«135750_j32238024524264_2_alg».proof.Proof.Gen.KernelIdeal.Skeleton
import proofs.«135750_j32238024524264_2_alg».proof.Proof.LibPlainDot
import Idealize.ShloMosaic.Lib.Pipeline.Value
import Idealize.ShloMosaic.Lib.ValueIdx
import Idealize.ShloMosaic.PureOps.Ideal.Laws

noncomputable section

open scoped BigOperators

namespace Cert.KernelIdeal.BodyEntries

open Cert.KernelIdeal Cert.KernelIdeal.Gen Idealize.ShloMosaic Idealize.ShloMosaic.ValueIdx

/-- The dimension numbers of the layer-1 products: 10000 × 128 by 128 × 256. -/
abbrev dotIn : DotDims S10000x128 S128x256 S10000x256 := dot_S10000x128_S128x256_S10000x256_1_0_0_1_n_n
/-- The dimension numbers of the layer-2 products: 10000 × 256 by 256 × 50. -/
abbrev dotOut : DotDims S10000x256 S256x50 S10000x50 := dot_S10000x256_S256x50_S10000x50_1_0_0_1_n_n

theorem dotIn_l0 (i : S10000x256.Idx) (q : dotIn.contr.Idx) : (dotIn.lhsIdx i q 0).val = (i 0).val := by
  unfold DotDims.lhsIdx
  rw [dif_neg (show ¬(0 : Fin S10000x128.rank) ∈ dotIn.lhsBatch by decide),
    dif_pos (show (0 : Fin S10000x128.rank) ∈ dotIn.lhsNonContracting by decide)]
  rfl
theorem dotIn_l1 (i : S10000x256.Idx) (q : dotIn.contr.Idx) : (dotIn.lhsIdx i q 1).val = (q ⟨0, by decide⟩).val :=
  dotIn.lhsIdx_val_of_single rfl i q
theorem dotIn_r0 (i : S10000x256.Idx) (q : dotIn.contr.Idx) : (dotIn.rhsIdx i q 0).val = (q ⟨0, by decide⟩).val :=
  dotIn.rhsIdx_val_of_single rfl i q
theorem dotIn_r1 (i : S10000x256.Idx) (q : dotIn.contr.Idx) : (dotIn.rhsIdx i q 1).val = (i 1).val := by
  unfold DotDims.rhsIdx
  rw [dif_neg (show ¬(1 : Fin S128x256.rank) ∈ dotIn.rhsBatch by decide),
    dif_pos (show (1 : Fin S128x256.rank) ∈ dotIn.rhsNonContracting by decide)]
  rfl

theorem dotOut_l0 (i : S10000x50.Idx) (q : dotOut.contr.Idx) : (dotOut.lhsIdx i q 0).val = (i 0).val := by
  unfold DotDims.lhsIdx
  rw [dif_neg (show ¬(0 : Fin S10000x256.rank) ∈ dotOut.lhsBatch by decide),
    dif_pos (show (0 : Fin S10000x256.rank) ∈ dotOut.lhsNonContracting by decide)]
  rfl
theorem dotOut_l1 (i : S10000x50.Idx) (q : dotOut.contr.Idx) : (dotOut.lhsIdx i q 1).val = (q ⟨0, by decide⟩).val :=
  dotOut.lhsIdx_val_of_single rfl i q
theorem dotOut_r0 (i : S10000x50.Idx) (q : dotOut.contr.Idx) : (dotOut.rhsIdx i q 0).val = (q ⟨0, by decide⟩).val :=
  dotOut.rhsIdx_val_of_single rfl i q
theorem dotOut_r1 (i : S10000x50.Idx) (q : dotOut.contr.Idx) : (dotOut.rhsIdx i q 1).val = (i 1).val := by
  unfold DotDims.rhsIdx
  rw [dif_neg (show ¬(1 : Fin S256x50.rank) ∈ dotOut.rhsBatch by decide),
    dif_pos (show (1 : Fin S256x50.rank) ∈ dotOut.rhsNonContracting by decide)]
  rfl

/-- A layer-1 product of a block of rows with a 128 × 256 matrix, at the entry (p, k). -/
theorem productIn_entry (l : FVec Ideal S10000x128 .f32) (r : FVec Ideal S128x256 .f32) (p : Fin 10000) (k : Fin 256) :
    matmul dotIn none l r (constant S10000x256 .f32 0x00000000#32) (ix2 p k) = ∑ f : Fin 128, l (ix2 p f) * r (ix2 f k) :=
  Cert.LibPlainDot.matmul_zero_plain dotIn rfl rfl dotIn_l0 dotIn_l1 dotIn_r0 dotIn_r1 none l r p k

/-- A layer-2 product of a block of rows with a 256 × 50 matrix, at the entry (p, c). -/
theorem productOut_entry (l : FVec Ideal S10000x256 .f32) (r : FVec Ideal S256x50 .f32) (p : Fin 10000) (c : Fin 50) :
    matmul dotOut none l r (constant S10000x50 .f32 0x00000000#32) (ix2 p c) = ∑ k : Fin 256, l (ix2 p k) * r (ix2 k c) :=
  Cert.LibPlainDot.matmul_zero_plain dotOut rfl rfl dotOut_l0 dotOut_l1 dotOut_r0 dotOut_r1 none l r p c

/-- One row broadcast over 10000 rows reads, at (p, k), the row at k. -/
theorem rowOver_entry {n : Nat} (v : (⟨2, ![1, n]⟩ : Shape).Idx → EReal) (h : (⟨2, ![1, n]⟩ : Shape).Broadcasts ⟨2, ![10000, n]⟩)
    (p : Fin 10000) (k : Fin n) : broadcastTo ⟨2, ![10000, n]⟩ v h (ix2 p k) = v (ix2 (0 : Fin 1) k) := by
  refine broadcastTo_apply v h (ix2 p k) (ix2 (0 : Fin 1) k) fun ax => ?_
  match ax with
  | ⟨0, _⟩ => show 0 = if (1 : ℕ) = 1 then 0 else p.val; rw [if_pos rfl]
  | ⟨1, _⟩ =>
    show k.val = if n = 1 then 0 else k.val
    split
    · have := k.isLt; omega
    · rfl

/-- The first body's stored value at (p, k). -/
theorem hidden_entry (a x : Vec Ideal S10000x128 .f32) (wl wr : Vec Ideal S128x256 .f32) (b : Vec Ideal S1x256 .f32)
    (p : Fin 10000) (k : Fin 256) :
    k0_pay1 a x wl wr b (ix2 p k)
      = max ((∑ f : Fin 128, a (ix2 p f) * wl (ix2 f k) + ∑ f : Fin 128, x (ix2 p f) * wr (ix2 f k))
          + b (ix2 (0 : Fin 1) k)) 0 := by
  unfold k0_pay1
  simp only [shapeCast_self]
  rw [maximumf_apply, addf_apply, addf_apply, broadcast_apply, productIn_entry, productIn_entry, rowOver_entry]
  show max _ (Ideal.ofBits .f32 0x00000000#32) = _
  rw [Ideal.ofBits_zero_f32]

/-- The second body's first stored value at (p, c). -/
theorem projected_entry (h : Vec Ideal S10000x256 .f32) (w : Vec Ideal S256x50 .f32) (p : Fin 10000) (c : Fin 50) :
    k1_pay2 h w (ix2 p c) = ∑ k : Fin 256, h (ix2 p k) * w (ix2 k c) := by
  unfold k1_pay2 k1_pay1
  simp only [shapeCast_self]
  exact productOut_entry h w p c

/-- The second body's second stored value at (p, c). -/
theorem projectedSelf_entry (h : Vec Ideal S10000x256 .f32) (w : Vec Ideal S256x50 .f32) (p : Fin 10000) (c : Fin 50) :
    k1_pay3 h w (ix2 p c) = ∑ k : Fin 256, h (ix2 p k) * w (ix2 k c) := by
  unfold k1_pay3 k1_pay1
  simp only [shapeCast_self]
  exact productOut_entry h w p c

/-- The third body's stored value at (p, c). -/
theorem combined_entry (s q : Vec Ideal S10000x50 .f32) (b : Vec Ideal S1x50 .f32) (p : Fin 10000) (c : Fin 50) :
    k2_pay1 s q b (ix2 p c) = (s (ix2 p c) + q (ix2 p c)) + b (ix2 (0 : Fin 1) c) := by
  unfold k2_pay1
  simp only [shapeCast_self]
  rw [addf_apply, addf_apply, rowOver_entry]

end Cert.KernelIdeal.BodyEntries

end
-- ==== Proof.HiddenArray.lean ====
/-
  The first region's result as one array.

  The first kernel runs over ten blocks of 10000 rows. At block t it reads rows 10000·t … 10000·t + 9999 of the
  aggregated features and of the node features, the whole of the two transposed weight matrices and of the bias row,
  and writes the same rows of its result. So whatever the five arrays hold when the region is entered, the result
  array ends holding, at (n, k),
      max ((∑_f a(n,f) · wl(f,k) + ∑_f x(n,f) · wr(f,k)) + b(0,k), 0):
  every block written is the block of this one function, and the ten blocks cover all 100000 rows.
-/
import proofs.«135750_j32238024524264_2_alg».proof.Proof.Gen.KernelIdeal.Frame
import proofs.«135750_j32238024524264_2_alg».proof.Proof.BodyEntries
import Idealize.ShloMosaic.Lib.Pipeline.Value
import Idealize.ShloMosaic.Lib.ValueIdx

noncomputable section

open scoped BigOperators

namespace Cert.KernelIdeal.HiddenArray

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Row p of block t. -/
def rowAt (t : Nat) (ht : t < 10) (p : Fin 10000) : Fin 100000 := ⟨10000 * t + p.val, by have := p.isLt; omega⟩

theorem tlt (t : Fin cfg0.N) : t.val < 10 := by have h := t.isLt; have e : cfg0.N = 10 := N_0; omega

/-- The hidden layer as one function of the five arrays. -/
def hiddenOf (a x : S100000x128.Idx → EReal) (wl wr : S128x256.Idx → EReal) (b : S1x256.Idx → EReal) : S100000x256.Idx → EReal :=
  fun i => max ((∑ f : Fin 128, a (ix2 (⟨(i 0).val, idx2_lt0 i⟩ : Fin 100000) f) * wl (ix2 f (⟨(i 1).val, idx2_lt1 i⟩ : Fin 256))
      + ∑ f : Fin 128, x (ix2 (⟨(i 0).val, idx2_lt0 i⟩ : Fin 100000) f) * wr (ix2 f (⟨(i 1).val, idx2_lt1 i⟩ : Fin 256)))
    + b (ix2 (0 : Fin 1) (⟨(i 1).val, idx2_lt1 i⟩ : Fin 256))) 0

theorem hiddenOf_entry (a x : S100000x128.Idx → EReal) (wl wr : S128x256.Idx → EReal) (b : S1x256.Idx → EReal) (n : Fin 100000) (k : Fin 256) :
    hiddenOf a x wl wr b (ix2 n k) = max ((∑ f : Fin 128, a (ix2 n f) * wl (ix2 f k) + ∑ f : Fin 128, x (ix2 n f) * wr (ix2 f k)) + b (ix2 (0 : Fin 1) k)) 0 := rfl

/-- The index maps: the row-blocked windows sit at block row t, the whole-array windows at the origin. -/
theorem idx_rows : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_5.index t (0 : Fin 2) = t.val ∧ win0_5.index t (1 : Fin 2) = 0) :=
  (by decide +kernel : ∀ t : Fin grid0.N, (win0_0.index t (0 : Fin 2) = t.val ∧ win0_0.index t (1 : Fin 2) = 0)
    ∧ (win0_1.index t (0 : Fin 2) = t.val ∧ win0_1.index t (1 : Fin 2) = 0)
    ∧ (win0_5.index t (0 : Fin 2) = t.val ∧ win0_5.index t (1 : Fin 2) = 0))

theorem idx_whole : ∀ t : Fin cfg0.N, (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0) :=
  (by decide +kernel : ∀ t : Fin grid0.N, (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0))

/-- Block t of the aggregated features is its rows 10000·t + p. -/
theorem aggBlock_entry (c : Dev nD) (t : Fin cfg0.N) (p : Fin 10000) (f : Fin 128) :
    (iblk0 V c 0 t : Vec Ideal S10000x128 .f32) (ix2 p f) = (V c main_v19 : S100000x128.Idx → EReal) (ix2 (rowAt t.val (tlt t) p) f) := by
  obtain ⟨⟨e0, e1⟩, -, -⟩ := idx_rows t
  unfold iblk0
  rw [View.read_apply]
  show V c main_v19 _ = V c main_v19 _
  refine congrArg _ (funext fun a => Fin.ext ?_)
  match a with
  | ⟨0, _⟩ => show win0_0.index t (0 : Fin 2) * 10000 + 1 * p.val = 10000 * t.val + p.val; rw [e0]; omega
  | ⟨1, _⟩ => show win0_0.index t (1 : Fin 2) * 128 + 1 * f.val = f.val; rw [e1]; omega

/-- Block t of the node features is their rows 10000·t + p. -/
theorem featBlock_entry (c : Dev nD) (t : Fin cfg0.N) (p : Fin 10000) (f : Fin 128) :
    (iblk0 V c 1 t : Vec Ideal S10000x128 .f32) (ix2 p f) = (V c main_arg0 : S100000x128.Idx → EReal) (ix2 (rowAt t.val (tlt t) p) f) := by
  obtain ⟨-, ⟨e0, e1⟩, -⟩ := idx_rows t
  unfold iblk0
  rw [View.read_apply]
  show V c main_arg0 _ = V c main_arg0 _
  refine congrArg _ (funext fun a => Fin.ext ?_)
  match a with
  | ⟨0, _⟩ => show win0_1.index t (0 : Fin 2) * 10000 + 1 * p.val = 10000 * t.val + p.val; rw [e0]; omega
  | ⟨1, _⟩ => show win0_1.index t (1 : Fin 2) * 128 + 1 * f.val = f.val; rw [e1]; omega

/-- Every block of the first weight matrix is the whole matrix. -/
theorem wlBlock_entry (c : Dev nD) (t : Fin cfg0.N) (f : Fin 128) (k : Fin 256) :
    (iblk0 V c 2 t : Vec Ideal S128x256 .f32) (ix2 f k) = (V c main_v4 : S128x256.Idx → EReal) (ix2 f k) := by
  obtain ⟨⟨e0, e1⟩, -, -⟩ := idx_whole t
  unfold iblk0
  rw [View.read_apply]
  show V c main_v4 _ = V c main_v4 _
  refine congrArg _ (funext fun a => Fin.ext ?_)
  match a with
  | ⟨0, _⟩ => show win0_2.index t (0 : Fin 2) * 128 + 1 * f.val = f.val; rw [e0]; omega
  | ⟨1, _⟩ => show win0_2.index t (1 : Fin 2) * 256 + 1 * k.val = k.val; rw [e1]; omega

/-- Every block of the second weight matrix is the whole matrix. -/
theorem wrBlock_entry (c : Dev nD) (t : Fin cfg0.N) (f : Fin 128) (k : Fin 256) :
    (iblk0 V c 4 t : Vec Ideal S128x256 .f32) (ix2 f k) = (V c main_v5 : S128x256.Idx → EReal) (ix2 f k) := by
  obtain ⟨-, -, ⟨e0, e1⟩⟩ := idx_whole t
  unfold iblk0
  rw [View.read_apply]
  show V c main_v5 _ = V c main_v5 _
  refine congrArg _ (funext fun a => Fin.ext ?_)
  match a with
  | ⟨0, _⟩ => show win0_4.index t (0 : Fin 2) * 128 + 1 * f.val = f.val; rw [e0]; omega
  | ⟨1, _⟩ => show win0_4.index t (1 : Fin 2) * 256 + 1 * k.val = k.val; rw [e1]; omega

/-- Every block of the bias row is the whole row. -/
theorem biasBlock_entry (c : Dev nD) (t : Fin cfg0.N) (z : Fin 1) (k : Fin 256) :
    (iblk0 V c 3 t : Vec Ideal S1x256 .f32) (ix2 z k) = (V c main_v20 : S1x256.Idx → EReal) (ix2 z k) := by
  obtain ⟨-, ⟨e0, e1⟩, -⟩ := idx_whole t
  unfold iblk0
  rw [View.read_apply]
  show V c main_v20 _ = V c main_v20 _
  refine congrArg _ (funext fun a => Fin.ext ?_)
  match a with
  | ⟨0, _⟩ => show win0_3.index t (0 : Fin 2) * 1 + 1 * z.val = z.val; rw [e0]; omega
  | ⟨1, _⟩ => show win0_3.index t (1 : Fin 2) * 256 + 1 * k.val = k.val; rw [e1]; omega

/-- Entry (p, k) of the result's block t is entry (10000·t + p, k) of the result. -/
theorem outBlock_index (t : Fin cfg0.N) (p : Fin 10000) (k : Fin 256) :
    (((cfg0.win 5).blk t).view.emb (ix2 p k) : S100000x256.Idx) = ix2 (rowAt t.val (tlt t) p) k := by
  obtain ⟨-, -, e0, e1⟩ := idx_rows t
  refine funext fun a => Fin.ext ?_
  match a with
  | ⟨0, _⟩ => show win0_5.index t (0 : Fin 2) * 10000 + 1 * p.val = 10000 * t.val + p.val; rw [e0]; omega
  | ⟨1, _⟩ => show win0_5.index t (1 : Fin 2) * 256 + 1 * k.val = k.val; rw [e1]; omega

/-- What block t writes back is block t of `hiddenOf` of the arrays as the region finds them. -/
theorem flushed_eq (c : Dev nD) (t : Fin cfg0.N) :
    (dat0 V c).flushed 5 t = ((cfg0.win 5).blk t).view.read (Elt Ideal)
      (hiddenOf (V c main_v19) (V c main_arg0) (V c main_v4) (V c main_v5) (V c main_v20)) := by
  show (cfg0.win 5).cut (grid0.coords t) ((dat0 V c).after 5 t) = _
  rw [after0_5]
  unfold out0_5
  rw [View.canon_unit_zero hz]
  simp only [View.ld_unit_zero (S := S10000x128) hz, View.ld_unit_zero (S := S128x256) hz, View.ld_unit_zero (S := S1x256) hz]
  funext j
  obtain ⟨p, k, rfl⟩ : ∃ (p : Fin 10000) (k : Fin 256), j = ix2 p k := ⟨j 0, j 1, eq_ix2 j⟩
  rw [View.read_apply, outBlock_index, hiddenOf_entry]
  show k0_pay1 (iblk0 V c 0 t) (iblk0 V c 1 t) (iblk0 V c 2 t) (iblk0 V c 4 t) (iblk0 V c 3 t) (ix2 p k) = _
  refine (BodyEntries.hidden_entry (iblk0 V c 0 t) (iblk0 V c 1 t) (iblk0 V c 2 t) (iblk0 V c 4 t) (iblk0 V c 3 t) p k).trans ?_
  simp only [aggBlock_entry, featBlock_entry, wlBlock_entry, wrBlock_entry, biasBlock_entry]
  rfl

/-- An index is in block t iff each coordinate is in the block's range on its axis. -/
theorem mem_block (t : Fin cfg0.N) (i : S100000x256.Idx) :
    i ∈ ((cfg0.win 5).blk t).view.set ↔ ∀ a : Fin 2, win0_5.index t a * S10000x256.size a ≤ (i a).val
      ∧ (i a).val < win0_5.index t a * S10000x256.size a + S10000x256.size a := by
  show i ∈ ((View.whole main_v21).slice (win0_5.rect t)).set ↔ _
  rw [View.set_slice_whole, Rect.mem_set_unit]
  exact Iff.rfl

/-- Every index of the result lies in the block of its row's tenth. -/
theorem covered (i : S100000x256.Idx) : ∃ t : Fin cfg0.N, (cfg0.win 5).flush t = true ∧ i ∈ ((cfg0.win 5).blk t).view.set := by
  have hi0 : (i 0).val < 100000 := (i 0).isLt
  have hi1 : (i 1).val < 256 := (i 1).isLt
  have hN : cfg0.N = 10 := N_0
  obtain ⟨t, ht⟩ : ∃ t : Fin cfg0.N, t.val = (i 0).val / 10000 := ⟨⟨(i 0).val / 10000, by omega⟩, rfl⟩
  obtain ⟨-, -, e0, e1⟩ := idx_rows t
  refine ⟨t, flush0_5 t, (mem_block t i).mpr fun a => ?_⟩
  match a with
  | ⟨0, _⟩ =>
    show win0_5.index t (0 : Fin 2) * 10000 ≤ (i 0).val ∧ (i 0).val < win0_5.index t (0 : Fin 2) * 10000 + 10000
    rw [e0, ht]; omega
  | ⟨1, _⟩ =>
    show win0_5.index t (1 : Fin 2) * 256 ≤ (i 1).val ∧ (i 1).val < win0_5.index t (1 : Fin 2) * 256 + 256
    rw [e1]; omega

/-- The result array after the region: `hiddenOf` of the five arrays as the region finds them. -/
theorem final (c : Dev nD) :
    (dat0 V c).arrAt 5 cfg0.N = hiddenOf (V c main_v19) (V c main_arg0) (V c main_v4) (V c main_v5) (V c main_v20) :=
  (dat0 V c).arrAt_eq_of_cover 5 _ (fun t _ => flushed_eq V c t) covered

end Cert.KernelIdeal.HiddenArray

end
-- ==== Proof.ProjectedArrays.lean ====
/-
  The second region's two results as arrays.

  The second kernel runs over ten blocks of 10000 rows of the hidden layer h. At block t it reads rows
  10000·t … 10000·t + 9999 of h and the whole of the two transposed 256 × 50 weight matrices, and writes the same rows
  of its two results: (n, c) ↦ ∑_k h(n,k) · w(k,c), once with each matrix. Whatever the three arrays hold when the
  region is entered, each result ends holding that function of them: every block written is its block, and the ten
  blocks cover all 100000 rows.
-/
import proofs.«135750_j32238024524264_2_alg».proof.Proof.Gen.KernelIdeal.Frame
import proofs.«135750_j32238024524264_2_alg».proof.Proof.BodyEntries
import Idealize.ShloMosaic.Lib.Pipeline.Value
import Idealize.ShloMosaic.Lib.ValueIdx

noncomputable section

open scoped BigOperators

namespace Cert.KernelIdeal.ProjectedArrays

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Row p of block t. -/
def rowAt (t : Nat) (ht : t < 10) (p : Fin 10000) : Fin 100000 := ⟨10000 * t + p.val, by have := p.isLt; omega⟩

theorem tlt (t : Fin cfg1.N) : t.val < 10 := by have h := t.isLt; have e : cfg1.N = 10 := N_1; omega

/-- The product of the hidden rows with a transposed weight matrix, as one function of the two arrays. -/
def projectedOf (h : S100000x256.Idx → EReal) (w : S256x50.Idx → EReal) : S100000x50.Idx → EReal :=
  fun i => ∑ k : Fin 256, h (ix2 (⟨(i 0).val, idx2_lt0 i⟩ : Fin 100000) k) * w (ix2 k (⟨(i 1).val, idx2_lt1 i⟩ : Fin 50))

theorem projectedOf_entry (h : S100000x256.Idx → EReal) (w : S256x50.Idx → EReal) (n : Fin 100000) (c : Fin 50) :
    projectedOf h w (ix2 n c) = ∑ k : Fin 256, h (ix2 n k) * w (ix2 k c) := rfl

/-- The index maps: the row-blocked windows sit at block row t, the whole-array windows at the origin. -/
theorem idx_rows : ∀ t : Fin cfg1.N, (win1_0.index t (0 : Fin 2) = t.val ∧ win1_0.index t (1 : Fin 2) = 0)
    ∧ (win1_3.index t (0 : Fin 2) = t.val ∧ win1_3.index t (1 : Fin 2) = 0)
    ∧ (win1_4.index t (0 : Fin 2) = t.val ∧ win1_4.index t (1 : Fin 2) = 0) :=
  (by decide +kernel : ∀ t : Fin grid1.N, (win1_0.index t (0 : Fin 2) = t.val ∧ win1_0.index t (1 : Fin 2) = 0)
    ∧ (win1_3.index t (0 : Fin 2) = t.val ∧ win1_3.index t (1 : Fin 2) = 0)
    ∧ (win1_4.index t (0 : Fin 2) = t.val ∧ win1_4.index t (1 : Fin 2) = 0))

theorem idx_whole : ∀ t : Fin cfg1.N, (win1_1.index t (0 : Fin 2) = 0 ∧ win1_1.index t (1 : Fin 2) = 0)
    ∧ (win1_2.index t (0 : Fin 2) = 0 ∧ win1_2.index t (1 : Fin 2) = 0) :=
  (by decide +kernel : ∀ t : Fin grid1.N, (win1_1.index t (0 : Fin 2) = 0 ∧ win1_1.index t (1 : Fin 2) = 0)
    ∧ (win1_2.index t (0 : Fin 2) = 0 ∧ win1_2.index t (1 : Fin 2) = 0))

/-- Block t of the hidden layer is its rows 10000·t + p. -/
theorem hiddenBlock_entry (c : Dev nD) (t : Fin cfg1.N) (p : Fin 10000) (f : Fin 256) :
    (iblk1 V c 0 t : Vec Ideal S10000x256 .f32) (ix2 p f) = (V c main_v21 : S100000x256.Idx → EReal) (ix2 (rowAt t.val (tlt t) p) f) := by
  obtain ⟨⟨e0, e1⟩, -, -⟩ := idx_rows t
  unfold iblk1
  rw [View.read_apply]
  show V c main_v21 _ = V c main_v21 _
  refine congrArg _ (funext fun a => Fin.ext ?_)
  match a with
  | ⟨0, _⟩ => show win1_0.index t (0 : Fin 2) * 10000 + 1 * p.val = 10000 * t.val + p.val; rw [e0]; omega
  | ⟨1, _⟩ => show win1_0.index t (1 : Fin 2) * 256 + 1 * f.val = f.val; rw [e1]; omega

/-- Every block of the first weight matrix is the whole matrix. -/
theorem wlBlock_entry (c : Dev nD) (t : Fin cfg1.N) (f : Fin 256) (k : Fin 50) :
    (iblk1 V c 1 t : Vec Ideal S256x50 .f32) (ix2 f k) = (V c main_v6 : S256x50.Idx → EReal) (ix2 f k) := by
  obtain ⟨⟨e0, e1⟩, -⟩ := idx_whole t
  unfold iblk1
  rw [View.read_apply]
  show V c main_v6 _ = V c main_v6 _
  refine congrArg _ (funext fun a => Fin.ext ?_)
  match a with
  | ⟨0, _⟩ => show win1_1.index t (0 : Fin 2) * 256 + 1 * f.val = f.val; rw [e0]; omega
  | ⟨1, _⟩ => show win1_1.index t (1 : Fin 2) * 50 + 1 * k.val = k.val; rw [e1]; omega

/-- Every block of the second weight matrix is the whole matrix. -/
theorem wrBlock_entry (c : Dev nD) (t : Fin cfg1.N) (f : Fin 256) (k : Fin 50) :
    (iblk1 V c 2 t : Vec Ideal S256x50 .f32) (ix2 f k) = (V c main_v7 : S256x50.Idx → EReal) (ix2 f k) := by
  obtain ⟨-, ⟨e0, e1⟩⟩ := idx_whole t
  unfold iblk1
  rw [View.read_apply]
  show V c main_v7 _ = V c main_v7 _
  refine congrArg _ (funext fun a => Fin.ext ?_)
  match a with
  | ⟨0, _⟩ => show win1_2.index t (0 : Fin 2) * 256 + 1 * f.val = f.val; rw [e0]; omega
  | ⟨1, _⟩ => show win1_2.index t (1 : Fin 2) * 50 + 1 * k.val = k.val; rw [e1]; omega

/-- Entry (p, k) of block t of this result is its entry (10000·t + p, k). -/
theorem outBlock3_index (t : Fin cfg1.N) (p : Fin 10000) (k : Fin 50) :
    (((cfg1.win 3).blk t).view.emb (ix2 p k) : S100000x50.Idx) = ix2 (rowAt t.val (tlt t) p) k := by
  obtain ⟨-, ⟨e0, e1⟩, -⟩ := idx_rows t
  refine funext fun a => Fin.ext ?_
  match a with
  | ⟨0, _⟩ => show win1_3.index t (0 : Fin 2) * 10000 + 1 * p.val = 10000 * t.val + p.val; rw [e0]; omega
  | ⟨1, _⟩ => show win1_3.index t (1 : Fin 2) * 50 + 1 * k.val = k.val; rw [e1]; omega

/-- Entry (p, k) of block t of this result is its entry (10000·t + p, k). -/
theorem outBlock4_index (t : Fin cfg1.N) (p : Fin 10000) (k : Fin 50) :
    (((cfg1.win 4).blk t).view.emb (ix2 p k) : S100000x50.Idx) = ix2 (rowAt t.val (tlt t) p) k := by
  obtain ⟨-, -, e0, e1⟩ := idx_rows t
  refine funext fun a => Fin.ext ?_
  match a with
  | ⟨0, _⟩ => show win1_4.index t (0 : Fin 2) * 10000 + 1 * p.val = 10000 * t.val + p.val; rw [e0]; omega
  | ⟨1, _⟩ => show win1_4.index t (1 : Fin 2) * 50 + 1 * k.val = k.val; rw [e1]; omega

/-- What block t writes back to the first result is block t of the product with the first matrix. -/
theorem flushed3_eq (c : Dev nD) (t : Fin cfg1.N) :
    (dat1 V c).flushed 3 t = ((cfg1.win 3).blk t).view.read (Elt Ideal) (projectedOf (V c main_v21) (V c main_v6)) := by
  show (cfg1.win 3).cut (grid1.coords t) ((dat1 V c).after 3 t) = _
  rw [after1_3]
  unfold out1_3
  rw [View.canon_unit_zero hz]
  simp only [View.ld_unit_zero (S := S10000x256) hz, View.ld_unit_zero (S := S256x50) hz]
  funext j
  obtain ⟨p, k, rfl⟩ : ∃ (p : Fin 10000) (k : Fin 50), j = ix2 p k := ⟨j 0, j 1, eq_ix2 j⟩
  rw [View.read_apply, outBlock3_index, projectedOf_entry]
  show k1_pay2 (iblk1 V c 0 t) (iblk1 V c 1 t) (ix2 p k) = _
  refine (BodyEntries.projected_entry (iblk1 V c 0 t) (iblk1 V c 1 t) p k).trans ?_
  simp only [hiddenBlock_entry, wlBlock_entry]
  rfl

/-- What block t writes back to the second result is block t of the product with the second matrix. -/
theorem flushed4_eq (c : Dev nD) (t : Fin cfg1.N) :
    (dat1 V c).flushed 4 t = ((cfg1.win 4).blk t).view.read (Elt Ideal) (projectedOf (V c main_v21) (V c main_v7)) := by
  show (cfg1.win 4).cut (grid1.coords t) ((dat1 V c).after 4 t) = _
  rw [after1_4]
  unfold out1_4
  rw [View.canon_unit_zero hz]
  simp only [View.ld_unit_zero (S := S10000x256) hz, View.ld_unit_zero (S := S256x50) hz]
  funext j
  obtain ⟨p, k, rfl⟩ : ∃ (p : Fin 10000) (k : Fin 50), j = ix2 p k := ⟨j 0, j 1, eq_ix2 j⟩
  rw [View.read_apply, outBlock4_index, projectedOf_entry]
  show k1_pay3 (iblk1 V c 0 t) (iblk1 V c 2 t) (ix2 p k) = _
  refine (BodyEntries.projectedSelf_entry (iblk1 V c 0 t) (iblk1 V c 2 t) p k).trans ?_
  simp only [hiddenBlock_entry, wrBlock_entry]
  rfl

/-- An index is in block t iff each coordinate is in the block's range on its axis. -/
theorem mem_block3 (t : Fin cfg1.N) (i : S100000x50.Idx) :
    i ∈ ((cfg1.win 3).blk t).view.set ↔ ∀ a : Fin 2, win1_3.index t a * S10000x50.size a ≤ (i a).val
      ∧ (i a).val < win1_3.index t a * S10000x50.size a + S10000x50.size a := by
  show i ∈ ((View.whole main_v22_0).slice (win1_3.rect t)).set ↔ _
  rw [View.set_slice_whole, Rect.mem_set_unit]
  exact Iff.rfl

/-- Every index lies in the block of its row's tenth. -/
theorem covered3 (i : S100000x50.Idx) : ∃ t : Fin cfg1.N, (cfg1.win 3).flush t = true ∧ i ∈ ((cfg1.win 3).blk t).view.set := by
  have hi0 : (i 0).val < 100000 := (i 0).isLt
  have hi1 : (i 1).val < 50 := (i 1).isLt
  have hN : cfg1.N = 10 := N_1
  obtain ⟨t, ht⟩ : ∃ t : Fin cfg1.N, t.val = (i 0).val / 10000 := ⟨⟨(i 0).val / 10000, by omega⟩, rfl⟩
  obtain ⟨-, ⟨e0, e1⟩, -⟩ := idx_rows t
  refine ⟨t, flush1_3 t, (mem_block3 t i).mpr fun a => ?_⟩
  match a with
  | ⟨0, _⟩ =>
    show win1_3.index t (0 : Fin 2) * 10000 ≤ (i 0).val ∧ (i 0).val < win1_3.index t (0 : Fin 2) * 10000 + 10000
    rw [e0, ht]; omega
  | ⟨1, _⟩ =>
    show win1_3.index t (1 : Fin 2) * 50 ≤ (i 1).val ∧ (i 1).val < win1_3.index t (1 : Fin 2) * 50 + 50
    rw [e1]; omega

/-- An index is in block t iff each coordinate is in the block's range on its axis. -/
theorem mem_block4 (t : Fin cfg1.N) (i : S100000x50.Idx) :
    i ∈ ((cfg1.win 4).blk t).view.set ↔ ∀ a : Fin 2, win1_4.index t a * S10000x50.size a ≤ (i a).val
      ∧ (i a).val < win1_4.index t a * S10000x50.size a + S10000x50.size a := by
  show i ∈ ((View.whole main_v22_1).slice (win1_4.rect t)).set ↔ _
  rw [View.set_slice_whole, Rect.mem_set_unit]
  exact Iff.rfl

/-- Every index lies in the block of its row's tenth. -/
theorem covered4 (i : S100000x50.Idx) : ∃ t : Fin cfg1.N, (cfg1.win 4).flush t = true ∧ i ∈ ((cfg1.win 4).blk t).view.set := by
  have hi0 : (i 0).val < 100000 := (i 0).isLt
  have hi1 : (i 1).val < 50 := (i 1).isLt
  have hN : cfg1.N = 10 := N_1
  obtain ⟨t, ht⟩ : ∃ t : Fin cfg1.N, t.val = (i 0).val / 10000 := ⟨⟨(i 0).val / 10000, by omega⟩, rfl⟩
  obtain ⟨-, -, e0, e1⟩ := idx_rows t
  refine ⟨t, flush1_4 t, (mem_block4 t i).mpr fun a => ?_⟩
  match a with
  | ⟨0, _⟩ =>
    show win1_4.index t (0 : Fin 2) * 10000 ≤ (i 0).val ∧ (i 0).val < win1_4.index t (0 : Fin 2) * 10000 + 10000
    rw [e0, ht]; omega
  | ⟨1, _⟩ =>
    show win1_4.index t (1 : Fin 2) * 50 ≤ (i 1).val ∧ (i 1).val < win1_4.index t (1 : Fin 2) * 50 + 50
    rw [e1]; omega

/-- The first result after the region: the product of the hidden layer with the first matrix, as the region finds them. -/
theorem final3 (c : Dev nD) : (dat1 V c).arrAt 3 cfg1.N = projectedOf (V c main_v21) (V c main_v6) :=
  (dat1 V c).arrAt_eq_of_cover 3 _ (fun t _ => flushed3_eq V c t) covered3

/-- The second result after the region: the product of the hidden layer with the second matrix. -/
theorem final4 (c : Dev nD) : (dat1 V c).arrAt 4 cfg1.N = projectedOf (V c main_v21) (V c main_v7) :=
  (dat1 V c).arrAt_eq_of_cover 4 _ (fun t _ => flushed4_eq V c t) covered4

end Cert.KernelIdeal.ProjectedArrays

end
-- ==== Proof.CombinedArray.lean ====
/-
  The third region's result as one array.

  The third kernel runs over ten blocks of 10000 rows. At block t it reads rows 10000·t … 10000·t + 9999 of the
  aggregated projected rows s and of the self term q, the whole bias row b, and writes the same rows of
      (n, c) ↦ (s(n,c) + q(n,c)) + b(0,c).
  Whatever the three arrays hold when the region is entered, the result ends holding that function of them.
-/
import proofs.«135750_j32238024524264_2_alg».proof.Proof.Gen.KernelIdeal.Frame
import proofs.«135750_j32238024524264_2_alg».proof.Proof.BodyEntries
import Idealize.ShloMosaic.Lib.Pipeline.Value
import Idealize.ShloMosaic.Lib.ValueIdx

noncomputable section

open scoped BigOperators

namespace Cert.KernelIdeal.CombinedArray

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Row p of block t. -/
def rowAt (t : Nat) (ht : t < 10) (p : Fin 10000) : Fin 100000 := ⟨10000 * t + p.val, by have := p.isLt; omega⟩

theorem tlt (t : Fin cfg2.N) : t.val < 10 := by have h := t.isLt; have e : cfg2.N = 10 := N_2; omega

/-- The sum of the aggregated term, the self term and the bias row, as one function of the three arrays. -/
def combinedOf (s q : S100000x50.Idx → EReal) (b : S1x50.Idx → EReal) : S100000x50.Idx → EReal :=
  fun i => (s (ix2 (⟨(i 0).val, idx2_lt0 i⟩ : Fin 100000) (⟨(i 1).val, idx2_lt1 i⟩ : Fin 50))
      + q (ix2 (⟨(i 0).val, idx2_lt0 i⟩ : Fin 100000) (⟨(i 1).val, idx2_lt1 i⟩ : Fin 50)))
    + b (ix2 (0 : Fin 1) (⟨(i 1).val, idx2_lt1 i⟩ : Fin 50))

theorem combinedOf_entry (s q : S100000x50.Idx → EReal) (b : S1x50.Idx → EReal) (n : Fin 100000) (c : Fin 50) :
    combinedOf s q b (ix2 n c) = (s (ix2 n c) + q (ix2 n c)) + b (ix2 (0 : Fin 1) c) := rfl

/-- The index maps: the row-blocked windows sit at block row t, the bias window at the origin. -/
theorem idx_rows : ∀ t : Fin cfg2.N, (win2_0.index t (0 : Fin 2) = t.val ∧ win2_0.index t (1 : Fin 2) = 0)
    ∧ (win2_1.index t (0 : Fin 2) = t.val ∧ win2_1.index t (1 : Fin 2) = 0)
    ∧ (win2_3.index t (0 : Fin 2) = t.val ∧ win2_3.index t (1 : Fin 2) = 0) :=
  (by decide +kernel : ∀ t : Fin grid2.N, (win2_0.index t (0 : Fin 2) = t.val ∧ win2_0.index t (1 : Fin 2) = 0)
    ∧ (win2_1.index t (0 : Fin 2) = t.val ∧ win2_1.index t (1 : Fin 2) = 0)
    ∧ (win2_3.index t (0 : Fin 2) = t.val ∧ win2_3.index t (1 : Fin 2) = 0))

theorem idx_whole : ∀ t : Fin cfg2.N, (win2_2.index t (0 : Fin 2) = 0 ∧ win2_2.index t (1 : Fin 2) = 0) :=
  (by decide +kernel : ∀ t : Fin grid2.N, (win2_2.index t (0 : Fin 2) = 0 ∧ win2_2.index t (1 : Fin 2) = 0))

/-- Block t of the aggregated term is its rows 10000·t + p. -/
theorem aggBlock_entry (c : Dev nD) (t : Fin cfg2.N) (p : Fin 10000) (f : Fin 50) :
    (iblk2 V c 0 t : Vec Ideal S10000x50 .f32) (ix2 p f) = (V c main_v34 : S100000x50.Idx → EReal) (ix2 (rowAt t.val (tlt t) p) f) := by
  obtain ⟨⟨e0, e1⟩, -, -⟩ := idx_rows t
  unfold iblk2
  rw [View.read_apply]
  show V c main_v34 _ = V c main_v34 _
  refine congrArg _ (funext fun a => Fin.ext ?_)
  match a with
  | ⟨0, _⟩ => show win2_0.index t (0 : Fin 2) * 10000 + 1 * p.val = 10000 * t.val + p.val; rw [e0]; omega
  | ⟨1, _⟩ => show win2_0.index t (1 : Fin 2) * 50 + 1 * f.val = f.val; rw [e1]; omega

/-- Block t of the self term is its rows 10000·t + p. -/
theorem selfBlock_entry (c : Dev nD) (t : Fin cfg2.N) (p : Fin 10000) (f : Fin 50) :
    (iblk2 V c 1 t : Vec Ideal S10000x50 .f32) (ix2 p f) = (V c main_v22_1 : S100000x50.Idx → EReal) (ix2 (rowAt t.val (tlt t) p) f) := by
  obtain ⟨-, ⟨e0, e1⟩, -⟩ := idx_rows t
  unfold iblk2
  rw [View.read_apply]
  show V c main_v22_1 _ = V c main_v22_1 _
  refine congrArg _ (funext fun a => Fin.ext ?_)
  match a with
  | ⟨0, _⟩ => show win2_1.index t (0 : Fin 2) * 10000 + 1 * p.val = 10000 * t.val + p.val; rw [e0]; omega
  | ⟨1, _⟩ => show win2_1.index t (1 : Fin 2) * 50 + 1 * f.val = f.val; rw [e1]; omega

/-- Every block of the bias row is the whole row. -/
theorem biasBlock_entry (c : Dev nD) (t : Fin cfg2.N) (f : Fin 1) (k : Fin 50) :
    (iblk2 V c 2 t : Vec Ideal S1x50 .f32) (ix2 f k) = (V c main_v35 : S1x50.Idx → EReal) (ix2 f k) := by
  obtain ⟨e0, e1⟩ := idx_whole t
  unfold iblk2
  rw [View.read_apply]
  show V c main_v35 _ = V c main_v35 _
  refine congrArg _ (funext fun a => Fin.ext ?_)
  match a with
  | ⟨0, _⟩ => show win2_2.index t (0 : Fin 2) * 1 + 1 * f.val = f.val; rw [e0]; omega
  | ⟨1, _⟩ => show win2_2.index t (1 : Fin 2) * 50 + 1 * k.val = k.val; rw [e1]; omega

/-- Entry (p, k) of block t of this result is its entry (10000·t + p, k). -/
theorem outBlock_index (t : Fin cfg2.N) (p : Fin 10000) (k : Fin 50) :
    (((cfg2.win 3).blk t).view.emb (ix2 p k) : S100000x50.Idx) = ix2 (rowAt t.val (tlt t) p) k := by
  obtain ⟨-, -, e0, e1⟩ := idx_rows t
  refine funext fun a => Fin.ext ?_
  match a with
  | ⟨0, _⟩ => show win2_3.index t (0 : Fin 2) * 10000 + 1 * p.val = 10000 * t.val + p.val; rw [e0]; omega
  | ⟨1, _⟩ => show win2_3.index t (1 : Fin 2) * 50 + 1 * k.val = k.val; rw [e1]; omega

/-- What block t writes back is block t of `combinedOf` of the arrays as the region finds them. -/
theorem flushed_eq (c : Dev nD) (t : Fin cfg2.N) :
    (dat2 V c).flushed 3 t = ((cfg2.win 3).blk t).view.read (Elt Ideal) (combinedOf (V c main_v34) (V c main_v22_1) (V c main_v35)) := by
  show (cfg2.win 3).cut (grid2.coords t) ((dat2 V c).after 3 t) = _
  rw [after2_3]
  unfold out2_3
  rw [View.canon_unit_zero hz]
  simp only [View.ld_unit_zero (S := S10000x50) hz, View.ld_unit_zero (S := S1x50) hz]
  funext j
  obtain ⟨p, k, rfl⟩ : ∃ (p : Fin 10000) (k : Fin 50), j = ix2 p k := ⟨j 0, j 1, eq_ix2 j⟩
  rw [View.read_apply, outBlock_index, combinedOf_entry]
  show k2_pay1 (iblk2 V c 0 t) (iblk2 V c 1 t) (iblk2 V c 2 t) (ix2 p k) = _
  refine (BodyEntries.combined_entry (iblk2 V c 0 t) (iblk2 V c 1 t) (iblk2 V c 2 t) p k).trans ?_
  simp only [aggBlock_entry, selfBlock_entry, biasBlock_entry]
  rfl

/-- An index is in block t iff each coordinate is in the block's range on its axis. -/
theorem mem_block (t : Fin cfg2.N) (i : S100000x50.Idx) :
    i ∈ ((cfg2.win 3).blk t).view.set ↔ ∀ a : Fin 2, win2_3.index t a * S10000x50.size a ≤ (i a).val
      ∧ (i a).val < win2_3.index t a * S10000x50.size a + S10000x50.size a := by
  show i ∈ ((View.whole main_v36).slice (win2_3.rect t)).set ↔ _
  rw [View.set_slice_whole, Rect.mem_set_unit]
  exact Iff.rfl

/-- Every index lies in the block of its row's tenth. -/
theorem covered (i : S100000x50.Idx) : ∃ t : Fin cfg2.N, (cfg2.win 3).flush t = true ∧ i ∈ ((cfg2.win 3).blk t).view.set := by
  have hi0 : (i 0).val < 100000 := (i 0).isLt
  have hi1 : (i 1).val < 50 := (i 1).isLt
  have hN : cfg2.N = 10 := N_2
  obtain ⟨t, ht⟩ : ∃ t : Fin cfg2.N, t.val = (i 0).val / 10000 := ⟨⟨(i 0).val / 10000, by omega⟩, rfl⟩
  obtain ⟨-, -, e0, e1⟩ := idx_rows t
  refine ⟨t, flush2_3 t, (mem_block t i).mpr fun a => ?_⟩
  match a with
  | ⟨0, _⟩ =>
    show win2_3.index t (0 : Fin 2) * 10000 ≤ (i 0).val ∧ (i 0).val < win2_3.index t (0 : Fin 2) * 10000 + 10000
    rw [e0, ht]; omega
  | ⟨1, _⟩ =>
    show win2_3.index t (1 : Fin 2) * 50 ≤ (i 1).val ∧ (i 1).val < win2_3.index t (1 : Fin 2) * 50 + 50
    rw [e1]; omega

/-- The result after the region: `combinedOf` of the three arrays as the region finds them. -/
theorem final (c : Dev nD) : (dat2 V c).arrAt 3 cfg2.N = combinedOf (V c main_v34) (V c main_v22_1) (V c main_v35) :=
  (dat2 V c).arrAt_eq_of_cover 3 _ (fun t _ => flushed_eq V c t) covered

end Cert.KernelIdeal.CombinedArray

end
-- ==== Proof.EdgeColumns.lean ====
/-
  The two columns of row numbers the aggregation reads, as functions of the edge array.

  The edge array has two rows of 640000 node numbers: sources and destinations. The source row is taken out, flattened,
  a negative number n replaced by n + 100000 (the wrap-around of array indexing), and laid out as a 640000 × 1 column for
  the row gather; the destination row is taken out, flattened and laid out as a column for the row scatter, unchanged.
-/
import proofs.«135750_j32238024524264_2_alg».proof.Proof.Gen.KernelIdeal

noncomputable section

namespace Cert.KernelIdeal.EdgeColumns

open Cert.KernelIdeal Cert.KernelIdeal.Facts₀ Idealize.ShloMosaic

/-- Row 0 of the edge array, flattened: the source node of every edge. -/
def flatSrc (ei : IVec S2x640000 32) : IVec S640000 32 :=
  shapeCast S640000 (extractStridedSlice S1x640000 ![0, 0] ei slices_S2x640000_S1x640000_0_0) shapeCasts_S1x640000_S640000

/-- Row 1 of the edge array, flattened: the destination node of every edge. -/
def flatDst (ei : IVec S2x640000 32) : IVec S640000 32 :=
  shapeCast S640000 (extractStridedSlice S1x640000 ![1, 0] ei slices_S2x640000_S1x640000_1_0) shapeCasts_S1x640000_S640000

/-- Negative row numbers wrapped around by 100000, as a column. -/
def wrapCol (s : IVec S640000 32) : IVec S640000x1 32 :=
  broadcastInDim S640000x1 ![0] bcast_S640000_S640000x1_0
    (select (cmpi .slt s (broadcastInDim S640000 ![] bcast_S_S640000 (constantI S_ 32 0#32)))
      (addi s (broadcastInDim S640000 ![] bcast_S_S640000 (constantI S_ 32 100000#32))) s)

/-- Row numbers as a column, unchanged. -/
def plainCol (d : IVec S640000 32) : IVec S640000x1 32 :=
  broadcastInDim S640000x1 ![0] bcast_S640000_S640000x1_0 d

/-- The column of (wrapped) source rows. -/
def srcColOf (ei : IVec S2x640000 32) : IVec S640000x1 32 := wrapCol (flatSrc ei)

/-- The column of destination rows. -/
def dstColOf (ei : IVec S2x640000 32) : IVec S640000x1 32 := plainCol (flatDst ei)

end Cert.KernelIdeal.EdgeColumns

end
-- ==== Proof.SageSpec.lean ====
/-
  The two-layer graph network as functions of plain arrays, in the two arrangements the two programs compute.

  Nodes carry rows of features; every edge e reads the row of its source node and adds it to the row of its
  destination node (`aggregate`: a row gather followed by an accumulating row scatter into zeros). With
  proj h W (n, c) = ∑_k h(n,k) · W(c,k)  (the product with the transposed weight matrix):

    hidden  = max (proj (aggregate x) W1l + proj x W1r + b1, 0)
    result  = proj (aggregate hidden) W2l + proj hidden W2r + b2.

  One program adds the three layer-1 summands as (· + ·) + b, the other as (· + b) + ·; and for layer 2 one program
  aggregates the 50-wide projected rows  aggregate (proj hidden W2l)  where the other projects the 256-wide aggregated
  rows  proj (aggregate hidden) W2l.  The first difference is commutativity and associativity of +, which hold on all
  extended reals. The second is stated here as a hypothesis of `result_eq` and proved where the aggregation is read
  entry by entry; it needs the hidden rows and the weights to be real numbers.
-/
import Idealize.ShloMosaic.PureOps.Ideal
import Idealize.ShloMosaic.Lib.ValueIdx

noncomputable section

open scoped BigOperators

namespace Cert.SageSpec

open Idealize.ShloMosaic Idealize.ShloMosaic.ValueIdx

/-- An n × m array of extended reals. -/
abbrev Mat (n m : Nat) : Type := (⟨2, ![n, m]⟩ : Shape).Idx → EReal
/-- A vector of n extended reals. -/
abbrev Row (n : Nat) : Type := (⟨1, ![n]⟩ : Shape).Idx → EReal
/-- One 32-bit row number per edge, as a column. -/
abbrev EdgeIdx : Type := IVec ⟨2, ![640000, 1]⟩ 32

/-- The row coordinate of an index, typed by the literal extent. -/
abbrev rowOf {n m : Nat} (i : (⟨2, ![n, m]⟩ : Shape).Idx) : Fin n := ⟨(i 0).val, idx2_lt0 i⟩
/-- The column coordinate of an index, typed by the literal extent. -/
abbrev colOf {n m : Nat} (i : (⟨2, ![n, m]⟩ : Shape).Idx) : Fin m := ⟨(i 1).val, idx2_lt1 i⟩

/-- The product with the transposed weight matrix: (n, c) ↦ ∑_k h(n,k) · W(c,k). -/
def proj {N K C : Nat} (h : Mat N K) (W : Mat C K) : Mat N C :=
  fun i => ∑ k : Fin K, h (ix2 (rowOf i) k) * W (ix2 (colOf i) k)

theorem proj_entry {N K C : Nat} (h : Mat N K) (W : Mat C K) (n : Fin N) (c : Fin C) :
    proj h W (ix2 n c) = ∑ k : Fin K, h (ix2 n k) * W (ix2 c k) := rfl

/-- Rows gathered by the edges' sources and added up at the edges' destinations, starting from zero; `gd` and `sd` are
    the dimension numbers of the row gather and of the row scatter at width W. -/
def aggregate {W : Nat} (gd : GatherDims ⟨2, ![100000, W]⟩ ⟨2, ![640000, 1]⟩ ⟨2, ![640000, W]⟩)
    (sd : ScatterDims ⟨2, ![100000, W]⟩ ⟨2, ![640000, 1]⟩ ⟨2, ![640000, W]⟩) (sidx didx : EdgeIdx) (feat : Mat 100000 W) : Mat 100000 W :=
  Ideal.hostScatterAdd sd (fun _ => Ideal.ofBits .f32 0x00000000#32) didx (Host.gather gd feat sidx)

/-- The hidden layer with the bias added last. -/
def hiddenBiasLast (a x : Mat 100000 128) (Wl Wr : Mat 256 128) (b : Row 256) : Mat 100000 256 :=
  fun i => max ((proj a Wl i + proj x Wr i) + b (ix1 (colOf i))) 0

/-- The hidden layer with the bias added in the middle. -/
def hiddenBiasMid (a x : Mat 100000 128) (Wl Wr : Mat 256 128) (b : Row 256) : Mat 100000 256 :=
  fun i => max ((proj a Wl i + b (ix1 (colOf i))) + proj x Wr i) 0

theorem hidden_eq (a x : Mat 100000 128) (Wl Wr : Mat 256 128) (b : Row 256) :
    hiddenBiasLast a x Wl Wr b = hiddenBiasMid a x Wl Wr b :=
  funext fun i => congrArg (fun t => max t 0) (add_right_comm _ _ _)

/-- The result from the aggregated PROJECTED rows `s`, the bias added last. -/
def resultFromProjected (s : Mat 100000 50) (h : Mat 100000 256) (Wr : Mat 50 256) (b : Row 50) : Mat 100000 50 :=
  fun i => (s i + proj h Wr i) + b (ix1 (colOf i))

/-- The result from the AGGREGATED hidden rows `g`, projected afterwards, the bias added in the middle. -/
def resultFromAggregated (g : Mat 100000 256) (h : Mat 100000 256) (Wl Wr : Mat 50 256) (b : Row 50) : Mat 100000 50 :=
  fun i => (proj g Wl i + b (ix1 (colOf i))) + proj h Wr i

/-- The two arrangements of layer 2 agree once aggregating the projected rows is projecting the aggregated rows. -/
theorem result_eq (s : Mat 100000 50) (g h : Mat 100000 256) (Wl Wr : Mat 50 256) (b : Row 50)
    (hs : ∀ i, s i = proj g Wl i) : resultFromProjected s h Wr b = resultFromAggregated g h Wl Wr b :=
  funext fun i => by
    show (s i + proj h Wr i) + b (ix1 (colOf i)) = (proj g Wl i + b (ix1 (colOf i))) + proj h Wr i
    rw [hs i, add_right_comm]

end Cert.SageSpec

end
-- ==== Proof.FirstStretch.lean ====
/-
  What the kernel program's first stretch of host operations computes.

  Before the first region the program takes the two rows out of the edge array and lays them out as columns (the
  source column with negative numbers wrapped around), transposes the four weight matrices, aggregates the node
  features — gathers the row of every edge's source and adds it up at the edge's destination, starting from zeros;
  the features pass through a narrower float format on the way, which in exact arithmetic changes nothing — and
  lays the first bias vector out as one row. Each buffer after the stretch is the corresponding function of the
  launch memory.
-/
import proofs.«135750_j32238024524264_2_alg».proof.Proof.Gen.KernelIdeal.Frame
import proofs.«135750_j32238024524264_2_alg».proof.Proof.EdgeColumns
import proofs.«135750_j32238024524264_2_alg».proof.Proof.SageSpec
import Idealize.ShloMosaic.Lib.StableHlo.Run
import Idealize.ShloMosaic.Lib.Pipeline.Value
import Idealize.ShloMosaic.Lib.ValueIdx

noncomputable section

namespace Cert.KernelIdeal.FirstStretch

open Cert.KernelIdeal Cert.KernelIdeal.Gen Cert.KernelIdeal.EdgeColumns
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

/-- The flattened source row. -/
theorem flatSrc_eq (c : Dev nD) :
    (W1 m ρ c (Proc.devRef .tc main_v1) : S640000.Idx → BitVec 32) = flatSrc (m ((c : Thread nD τ).loc main_arg1)) := by
  show StableHlo.after hostOps0 (W0 m ρ c) (Proc.devRef .tc main_v1) = _
  after_results
  rfl

/-- The flattened destination row. -/
theorem flatDst_eq (c : Dev nD) :
    (W1 m ρ c (Proc.devRef .tc main_v3) : S640000.Idx → BitVec 32) = flatDst (m ((c : Thread nD τ).loc main_arg1)) := by
  show StableHlo.after hostOps0 (W0 m ρ c) (Proc.devRef .tc main_v3) = _
  after_results
  rfl

set_option maxHeartbeats 1000000 in
/-- The aggregated node features. -/
theorem aggregated_eq (c : Dev nD) :
    (W1 m ρ c (Proc.devRef .tc main_v19) : S100000x128.Idx → EReal)
      = Cert.SageSpec.aggregate gather_S100000x128_S640000x1_S640000x128_1_0_n_n_0_1_1128 scatter_S100000x128_S640000x1_S640000x128_1_0_0_1
          (srcColOf (m ((c : Thread nD τ).loc main_arg1))) (dstColOf (m ((c : Thread nD τ).loc main_arg1)))
          (m ((c : Thread nD τ).loc main_arg0)) := by
  show StableHlo.after hostOps0 (W0 m ρ c) (Proc.devRef .tc main_v19) = _
  after_results_simp
  unfold Cert.SageSpec.aggregate srcColOf dstColOf wrapCol plainCol flatSrc flatDst
  refine congr (congr (congrArg (Ideal.hostScatterAdd scatter_S100000x128_S640000x1_S640000x128_1_0_0_1) ?_) ?_) ?_
  · rfl
  · rfl
  · rfl

/-- The node features are untouched. -/
theorem features_eq (c : Dev nD) : W1 m ρ c (Proc.devRef .tc main_arg0) = m ((c : Thread nD τ).loc main_arg0) := by
  show StableHlo.after hostOps0 (W0 m ρ c) (Proc.devRef .tc main_arg0) = _
  after_results

/-- The second bias vector is untouched. -/
theorem bias2_eq (c : Dev nD) : W1 m ρ c (Proc.devRef .tc main_arg6) = m ((c : Thread nD τ).loc main_arg6) := by
  show StableHlo.after hostOps0 (W0 m ρ c) (Proc.devRef .tc main_arg6) = _
  after_results

/-- The first layer-1 weight matrix, transposed. -/
theorem w1l_entry (c : Dev nD) (f : Fin 128) (k : Fin 256) :
    (W1 m ρ c (Proc.devRef .tc main_v4) : S128x256.Idx → EReal) (ix2 f k) = (m ((c : Thread nD τ).loc main_arg2) : S256x128.Idx → EReal) (ix2 k f) := by
  have e : (W1 m ρ c (Proc.devRef .tc main_v4) : S128x256.Idx → EReal)
      = transpose S128x256 [1, 0] (m ((c : Thread nD τ).loc main_arg2)) transposes_S256x128_S128x256_1_0 := by
    show StableHlo.after hostOps0 (W0 m ρ c) (Proc.devRef .tc main_v4) = _
    after_results
  rw [e]
  exact transpose_apply [1, 0] _ transposes_S256x128_S128x256_1_0 (ix2 f k) (ix2 k f) (fun b => by
    match b with
    | ⟨0, _⟩ => rfl
    | ⟨1, _⟩ => rfl)

/-- The second layer-1 weight matrix, transposed. -/
theorem w1r_entry (c : Dev nD) (f : Fin 128) (k : Fin 256) :
    (W1 m ρ c (Proc.devRef .tc main_v5) : S128x256.Idx → EReal) (ix2 f k) = (m ((c : Thread nD τ).loc main_arg4) : S256x128.Idx → EReal) (ix2 k f) := by
  have e : (W1 m ρ c (Proc.devRef .tc main_v5) : S128x256.Idx → EReal)
      = transpose S128x256 [1, 0] (m ((c : Thread nD τ).loc main_arg4)) transposes_S256x128_S128x256_1_0 := by
    show StableHlo.after hostOps0 (W0 m ρ c) (Proc.devRef .tc main_v5) = _
    after_results
  rw [e]
  exact transpose_apply [1, 0] _ transposes_S256x128_S128x256_1_0 (ix2 f k) (ix2 k f) (fun b => by
    match b with
    | ⟨0, _⟩ => rfl
    | ⟨1, _⟩ => rfl)

/-- The first layer-2 weight matrix, transposed. -/
theorem w2l_entry (c : Dev nD) (k : Fin 256) (o : Fin 50) :
    (W1 m ρ c (Proc.devRef .tc main_v6) : S256x50.Idx → EReal) (ix2 k o) = (m ((c : Thread nD τ).loc main_arg5) : S50x256.Idx → EReal) (ix2 o k) := by
  have e : (W1 m ρ c (Proc.devRef .tc main_v6) : S256x50.Idx → EReal)
      = transpose S256x50 [1, 0] (m ((c : Thread nD τ).loc main_arg5)) transposes_S50x256_S256x50_1_0 := by
    show StableHlo.after hostOps0 (W0 m ρ c) (Proc.devRef .tc main_v6) = _
    after_results
  rw [e]
  exact transpose_apply [1, 0] _ transposes_S50x256_S256x50_1_0 (ix2 k o) (ix2 o k) (fun b => by
    match b with
    | ⟨0, _⟩ => rfl
    | ⟨1, _⟩ => rfl)

/-- The second layer-2 weight matrix, transposed. -/
theorem w2r_entry (c : Dev nD) (k : Fin 256) (o : Fin 50) :
    (W1 m ρ c (Proc.devRef .tc main_v7) : S256x50.Idx → EReal) (ix2 k o) = (m ((c : Thread nD τ).loc main_arg7) : S50x256.Idx → EReal) (ix2 o k) := by
  have e : (W1 m ρ c (Proc.devRef .tc main_v7) : S256x50.Idx → EReal)
      = transpose S256x50 [1, 0] (m ((c : Thread nD τ).loc main_arg7)) transposes_S50x256_S256x50_1_0 := by
    show StableHlo.after hostOps0 (W0 m ρ c) (Proc.devRef .tc main_v7) = _
    after_results
  rw [e]
  exact transpose_apply [1, 0] _ transposes_S50x256_S256x50_1_0 (ix2 k o) (ix2 o k) (fun b => by
    match b with
    | ⟨0, _⟩ => rfl
    | ⟨1, _⟩ => rfl)

/-- The first bias vector as one row. -/
theorem bias1_entry (c : Dev nD) (k : Fin 256) :
    (W1 m ρ c (Proc.devRef .tc main_v20) : S1x256.Idx → EReal) (ix2 (0 : Fin 1) k) = (m ((c : Thread nD τ).loc main_arg3) : S256.Idx → EReal) (ix1 k) := by
  have e : (W1 m ρ c (Proc.devRef .tc main_v20) : S1x256.Idx → EReal)
      = shapeCast S1x256 (m ((c : Thread nD τ).loc main_arg3)) shapeCasts_S256_S1x256 := by
    show StableHlo.after hostOps0 (W0 m ρ c) (Proc.devRef .tc main_v20) = _
    after_results
    rfl
  rw [e]
  refine shapeCast_apply _ shapeCasts_S256_S1x256 (ix2 (0 : Fin 1) k) (ix1 k) ?_
  rw [Shape.rowMajor_val_two, Shape.rowMajor_val_one]
  show k.val = 0 * 256 + k.val
  omega

end Cert.KernelIdeal.FirstStretch

end
-- ==== Proof.SecondStretch.lean ====
/-
  What the kernel program's second stretch of host operations computes.

  Between the second and the third region the program aggregates the 50-wide projected rows that the second region
  left — it lays the edges' source numbers out as a column once more (negative numbers wrapped around), gathers the
  row of every edge's source and adds it up at the edge's destination, starting from zeros; the rows pass through a
  narrower float format on the way, which in exact arithmetic changes nothing — and lays the second bias vector out as
  one row. The second region's other result is not touched. Each buffer after the stretch is the corresponding
  function of the buffers before it, and the three buffers the stretch reads that the first two regions do not write
  hold what they held before the first region.
-/
import proofs.«135750_j32238024524264_2_alg».proof.Proof.Gen.KernelIdeal.Frame
import proofs.«135750_j32238024524264_2_alg».proof.Proof.EdgeColumns
import proofs.«135750_j32238024524264_2_alg».proof.Proof.SageSpec
import Idealize.ShloMosaic.Lib.StableHlo.Run
import Idealize.ShloMosaic.Lib.Pipeline.Value
import Idealize.ShloMosaic.Lib.ValueIdx

noncomputable section

namespace Cert.KernelIdeal.SecondStretch

open Cert.KernelIdeal Cert.KernelIdeal.Gen Cert.KernelIdeal.EdgeColumns
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

/-- The second region's second result is not written by the stretch. -/
theorem self_eq (c : Dev nD) : W4 m ρ c (Proc.devRef .tc main_v22_1) = W3 m ρ c (Proc.devRef .tc main_v22_1) := by
  show StableHlo.after hostOps2 (W3 m ρ c) (Proc.devRef .tc main_v22_1) = _
  after_results

/-- The flattened source row is as it was before the first region: neither region writes it. -/
theorem src_back (c : Dev nD) : W3 m ρ c (Proc.devRef .tc main_v1) = W1 m ρ c (Proc.devRef .tc main_v1) :=
  (W3_of_ne m ρ c main_v1 (by decide)).trans (W2_of_ne m ρ c main_v1 (by decide))

/-- The flattened destination row is as it was before the first region. -/
theorem dst_back (c : Dev nD) : W3 m ρ c (Proc.devRef .tc main_v3) = W1 m ρ c (Proc.devRef .tc main_v3) :=
  (W3_of_ne m ρ c main_v3 (by decide)).trans (W2_of_ne m ρ c main_v3 (by decide))

/-- The second bias vector is as it was before the first region. -/
theorem bias_back (c : Dev nD) : W3 m ρ c (Proc.devRef .tc main_arg6) = W1 m ρ c (Proc.devRef .tc main_arg6) :=
  (W3_of_ne m ρ c main_arg6 (by decide)).trans (W2_of_ne m ρ c main_arg6 (by decide))

/-- The aggregated projected rows: the second region's first result, gathered by the wrapped source column and added
    up by the destination column. -/
theorem aggregated_eq (c : Dev nD) :
    (W4 m ρ c (Proc.devRef .tc main_v34) : S100000x50.Idx → EReal)
      = Cert.SageSpec.aggregate gather_S100000x50_S640000x1_S640000x50_1_0_n_n_0_1_150 scatter_S100000x50_S640000x1_S640000x50_1_0_0_1
          (wrapCol (W3 m ρ c (Proc.devRef .tc main_v1))) (plainCol (W3 m ρ c (Proc.devRef .tc main_v3)))
          (W3 m ρ c (Proc.devRef .tc main_v22_0)) := by
  show StableHlo.after hostOps2 (W3 m ρ c) (Proc.devRef .tc main_v34) = _
  after_results
  rfl

/-- The second bias vector as one row. -/
theorem bias_entry (c : Dev nD) (k : Fin 50) :
    (W4 m ρ c (Proc.devRef .tc main_v35) : S1x50.Idx → EReal) (ix2 (0 : Fin 1) k)
      = (W3 m ρ c (Proc.devRef .tc main_arg6) : S50.Idx → EReal) (ix1 k) := by
  have e : (W4 m ρ c (Proc.devRef .tc main_v35) : S1x50.Idx → EReal)
      = shapeCast S1x50 (W3 m ρ c (Proc.devRef .tc main_arg6)) shapeCasts_S50_S1x50 := by
    show StableHlo.after hostOps2 (W3 m ρ c) (Proc.devRef .tc main_v35) = _
    after_results
    rfl
  rw [e]
  refine shapeCast_apply _ shapeCasts_S50_S1x50 (ix2 (0 : Fin 1) k) (ix1 k) ?_
  rw [Shape.rowMajor_val_two, Shape.rowMajor_val_one]
  show k.val = 0 * 50 + k.val
  omega

end Cert.KernelIdeal.SecondStretch

end
-- ==== Proof.StagedForms.lean ====
/-
  The staged forms of the weights and biases against the specification's.

  The three regions of the computation are stated over the arrays as they are staged: each weight matrix TRANSPOSED,
  wT (f, k) = W (k, f), and each bias vector as ONE ROW, bRow (0, k) = b k. With those two identifications the region
  results are the specification's functions: a product with the staged matrix, ∑_f h (n, f) · wT (f, k), is the
  product with the transposed weight, ∑_f h (n, f) · W (k, f); a bias read from the row at (0, k) is the bias at k.
  Each statement is proved entry by entry: both sides are unfolded at the index (n, k) and the staged entries are
  replaced by the weights' and the bias's.
-/
import proofs.«135750_j32238024524264_2_alg».proof.Proof.HiddenArray
import proofs.«135750_j32238024524264_2_alg».proof.Proof.ProjectedArrays
import proofs.«135750_j32238024524264_2_alg».proof.Proof.CombinedArray
import proofs.«135750_j32238024524264_2_alg».proof.Proof.SageSpec
import Idealize.ShloMosaic.Lib.ValueIdx

noncomputable section

open scoped BigOperators

namespace Cert.KernelIdeal.StagedForms

open Cert.KernelIdeal Cert.SageSpec Idealize.ShloMosaic Idealize.ShloMosaic.ValueIdx

/-- The hidden layer over the staged arrays is the specification's hidden layer with the bias added last:
    max ((a · Wlᵀ + x · Wrᵀ) + b, 0). -/
theorem hiddenOf_eq (a x : Mat 100000 128) (wlT wrT : S128x256.Idx → EReal) (bRow : S1x256.Idx → EReal)
    (Wl Wr : Mat 256 128) (b : Row 256)
    (hl : ∀ (f : Fin 128) (k : Fin 256), wlT (ix2 f k) = Wl (ix2 k f))
    (hr : ∀ (f : Fin 128) (k : Fin 256), wrT (ix2 f k) = Wr (ix2 k f))
    (hb : ∀ k : Fin 256, bRow (ix2 (0 : Fin 1) k) = b (ix1 k)) :
    HiddenArray.hiddenOf a x wlT wrT bRow = hiddenBiasLast a x Wl Wr b := by
  funext i
  obtain ⟨n, k, rfl⟩ : ∃ (n : Fin 100000) (k : Fin 256), i = ix2 n k := ⟨i 0, i 1, eq_ix2 i⟩
  rw [HiddenArray.hiddenOf_entry]
  show _ = max ((∑ f : Fin 128, a (ix2 n f) * Wl (ix2 k f) + ∑ f : Fin 128, x (ix2 n f) * Wr (ix2 k f)) + b (ix1 k)) 0
  simp only [hl, hr, hb]

/-- A product with a staged (transposed) weight matrix is the specification's product with the transposed weight. -/
theorem projectedOf_eq (h : Mat 100000 256) (wT : S256x50.Idx → EReal) (W : Mat 50 256)
    (hw : ∀ (k : Fin 256) (c : Fin 50), wT (ix2 k c) = W (ix2 c k)) :
    ProjectedArrays.projectedOf h wT = proj h W := by
  funext i
  obtain ⟨n, c, rfl⟩ : ∃ (n : Fin 100000) (c : Fin 50), i = ix2 n c := ⟨i 0, i 1, eq_ix2 i⟩
  rw [ProjectedArrays.projectedOf_entry, proj_entry]
  simp only [hw]

/-- The sum of the aggregated projected rows s, the projected hidden rows q = h · Wrᵀ and the bias row is the
    specification's result from the projected rows: (s + h · Wrᵀ) + b. -/
theorem combinedOf_eq (s q : Mat 100000 50) (bRow : S1x50.Idx → EReal) (h : Mat 100000 256) (Wr : Mat 50 256) (b : Row 50)
    (hq : q = proj h Wr) (hb : ∀ c : Fin 50, bRow (ix2 (0 : Fin 1) c) = b (ix1 c)) :
    CombinedArray.combinedOf s q bRow = resultFromProjected s h Wr b := by
  subst hq
  funext i
  obtain ⟨n, c, rfl⟩ : ∃ (n : Fin 100000) (c : Fin 50), i = ix2 n c := ⟨i 0, i 1, eq_ix2 i⟩
  rw [CombinedArray.combinedOf_entry]
  show _ = (s (ix2 n c) + proj h Wr (ix2 n c)) + b (ix1 c)
  rw [hb]

end Cert.KernelIdeal.StagedForms

end
-- ==== Proof.KernelValue.lean ====
/-
  The kernel program's result as a function of its arguments.

  The buffer contents are followed through the program: the first stretch of host operations aggregates the node
  features and transposes the weights; the first region leaves the hidden layer; the second region its two projections;
  the second stretch of host operations aggregates the first projection; the third region adds the aggregated
  projection, the second projection and the bias. Each step is an equation between whole arrays, so the result buffer
  ends holding, as one function of the eight argument arrays,
      (aggregate (proj hidden W2l) + proj hidden W2r) + b2,   hidden = max ((proj (aggregate x) W1l + proj x W1r) + b1, 0).
-/
import proofs.«135750_j32238024524264_2_alg».proof.Proof.NamedRun
import proofs.«135750_j32238024524264_2_alg».proof.Proof.HiddenArray
import proofs.«135750_j32238024524264_2_alg».proof.Proof.ProjectedArrays
import proofs.«135750_j32238024524264_2_alg».proof.Proof.CombinedArray
import proofs.«135750_j32238024524264_2_alg».proof.Proof.FirstStretch
import proofs.«135750_j32238024524264_2_alg».proof.Proof.SecondStretch
import proofs.«135750_j32238024524264_2_alg».proof.Proof.StagedForms
import proofs.«135750_j32238024524264_2_alg».proof.Proof.SageSpec
import proofs.«135750_j32238024524264_2_alg».proof.Proof.EdgeColumns

noncomputable section

namespace Cert.KernelIdeal.KernelValue

open Cert.KernelIdeal Cert.KernelIdeal.Gen Cert.KernelIdeal.EdgeColumns Cert.SageSpec
open Idealize.ShloMosaic Idealize.ShloMosaic.TcCoe Idealize.SL.Sem Idealize.ShloMosaic.ValueIdx

variable (m : (ℓ : Loc nD τ sig) → Buf (Elt Ideal) ℓ) (ρ : Dev nD → PrngReg)

/-- The node features on core c. -/
abbrev argX (c : Dev nD) : Mat 100000 128 := m ((c : Thread nD τ).loc main_arg0)
/-- The edge array on core c. -/
abbrev argE (c : Dev nD) : IVec S2x640000 32 := m ((c : Thread nD τ).loc main_arg1)
abbrev argW1l (c : Dev nD) : Mat 256 128 := m ((c : Thread nD τ).loc main_arg2)
abbrev argB1 (c : Dev nD) : Row 256 := m ((c : Thread nD τ).loc main_arg3)
abbrev argW1r (c : Dev nD) : Mat 256 128 := m ((c : Thread nD τ).loc main_arg4)
abbrev argW2l (c : Dev nD) : Mat 50 256 := m ((c : Thread nD τ).loc main_arg5)
abbrev argB2 (c : Dev nD) : Row 50 := m ((c : Thread nD τ).loc main_arg6)
abbrev argW2r (c : Dev nD) : Mat 50 256 := m ((c : Thread nD τ).loc main_arg7)

/-- The aggregated node features. -/
abbrev aggX (c : Dev nD) : Mat 100000 128 :=
  aggregate gather_S100000x128_S640000x1_S640000x128_1_0_n_n_0_1_1128 scatter_S100000x128_S640000x1_S640000x128_1_0_0_1
    (srcColOf (argE m c)) (dstColOf (argE m c)) (argX m c)

/-- The hidden layer, the bias added last. -/
abbrev hiddenK (c : Dev nD) : Mat 100000 256 := hiddenBiasLast (aggX m c) (argX m c) (argW1l m c) (argW1r m c) (argB1 m c)

/-- The kernel program's result. -/
abbrev resultK (c : Dev nD) : Mat 100000 50 :=
  resultFromProjected
    (aggregate gather_S100000x50_S640000x1_S640000x50_1_0_n_n_0_1_150 scatter_S100000x50_S640000x1_S640000x50_1_0_0_1
      (srcColOf (argE m c)) (dstColOf (argE m c)) (proj (hiddenK m c) (argW2l m c)))
    (hiddenK m c) (argW2r m c) (argB2 m c)

/-- After the first region its result array is the hidden layer. -/
theorem hidden_eq (c : Dev nD) : (W2 m ρ c (Proc.devRef .tc main_v21) : S100000x256.Idx → EReal) = hiddenK m c := by
  have h0 : (W2 m ρ c (Proc.devRef .tc main_v21) : S100000x256.Idx → EReal)
      = HiddenArray.hiddenOf (V1 m ρ c main_v19) (V1 m ρ c main_arg0) (V1 m ρ c main_v4) (V1 m ρ c main_v5) (V1 m ρ c main_v20) :=
    (W2_arr m ρ c 5).trans (HiddenArray.final (V1 m ρ) c)
  have e1 : (V1 m ρ c main_v19 : S100000x128.Idx → EReal) = aggX m c := FirstStretch.aggregated_eq m ρ c
  have e2 : (V1 m ρ c main_arg0 : S100000x128.Idx → EReal) = argX m c := FirstStretch.features_eq m ρ c
  rw [h0, e1, e2]
  exact StagedForms.hiddenOf_eq _ _ _ _ _ _ _ _ (FirstStretch.w1l_entry m ρ c) (FirstStretch.w1r_entry m ρ c) (FirstStretch.bias1_entry m ρ c)

/-- After the second region its first result is the hidden layer projected by the first layer-2 matrix. -/
theorem projected_eq (c : Dev nD) :
    (W3 m ρ c (Proc.devRef .tc main_v22_0) : S100000x50.Idx → EReal) = proj (hiddenK m c) (argW2l m c) := by
  have h0 : (W3 m ρ c (Proc.devRef .tc main_v22_0) : S100000x50.Idx → EReal)
      = ProjectedArrays.projectedOf (V2 m ρ c main_v21) (V2 m ρ c main_v6) :=
    (W3_arr m ρ c 3).trans (ProjectedArrays.final3 (V2 m ρ) c)
  have e1 : (V2 m ρ c main_v21 : S100000x256.Idx → EReal) = hiddenK m c := hidden_eq m ρ c
  have e2 : V2 m ρ c main_v6 = V1 m ρ c main_v6 := W2_of_ne m ρ c main_v6 (by decide)
  rw [h0, e1, e2]
  exact StagedForms.projectedOf_eq _ _ _ (FirstStretch.w2l_entry m ρ c)

/-- After the second region its second result is the hidden layer projected by the second layer-2 matrix. -/
theorem selfTerm_eq (c : Dev nD) :
    (W3 m ρ c (Proc.devRef .tc main_v22_1) : S100000x50.Idx → EReal) = proj (hiddenK m c) (argW2r m c) := by
  have h0 : (W3 m ρ c (Proc.devRef .tc main_v22_1) : S100000x50.Idx → EReal)
      = ProjectedArrays.projectedOf (V2 m ρ c main_v21) (V2 m ρ c main_v7) :=
    (W3_arr m ρ c 4).trans (ProjectedArrays.final4 (V2 m ρ) c)
  have e1 : (V2 m ρ c main_v21 : S100000x256.Idx → EReal) = hiddenK m c := hidden_eq m ρ c
  have e2 : V2 m ρ c main_v7 = V1 m ρ c main_v7 := W2_of_ne m ρ c main_v7 (by decide)
  rw [h0, e1, e2]
  exact StagedForms.projectedOf_eq _ _ _ (FirstStretch.w2r_entry m ρ c)

/-- The aggregated projection, as the third region finds it. -/
theorem aggregatedProjection_eq (c : Dev nD) :
    (W4 m ρ c (Proc.devRef .tc main_v34) : S100000x50.Idx → EReal)
      = aggregate gather_S100000x50_S640000x1_S640000x50_1_0_n_n_0_1_150 scatter_S100000x50_S640000x1_S640000x50_1_0_0_1
          (srcColOf (argE m c)) (dstColOf (argE m c)) (proj (hiddenK m c) (argW2l m c)) := by
  have e1 : (W3 m ρ c (Proc.devRef .tc main_v1) : S640000.Idx → BitVec 32) = flatSrc (argE m c) :=
    (SecondStretch.src_back m ρ c).trans (FirstStretch.flatSrc_eq m ρ c)
  have e2 : (W3 m ρ c (Proc.devRef .tc main_v3) : S640000.Idx → BitVec 32) = flatDst (argE m c) :=
    (SecondStretch.dst_back m ρ c).trans (FirstStretch.flatDst_eq m ρ c)
  rw [SecondStretch.aggregated_eq m ρ c, e1, e2, projected_eq m ρ c]
  rfl

/-- After the third region the result buffer holds the kernel program's result. -/
theorem result_eq (c : Dev nD) : (W5 m ρ c (Proc.devRef .tc main_v36) : S100000x50.Idx → EReal) = resultK m c := by
  have h0 : (W5 m ρ c (Proc.devRef .tc main_v36) : S100000x50.Idx → EReal)
      = CombinedArray.combinedOf (V4 m ρ c main_v34) (V4 m ρ c main_v22_1) (V4 m ρ c main_v35) :=
    (W5_arr m ρ c 3).trans (CombinedArray.final (V4 m ρ) c)
  have e1 := aggregatedProjection_eq m ρ c
  have e2 : (V4 m ρ c main_v22_1 : S100000x50.Idx → EReal) = proj (hiddenK m c) (argW2r m c) :=
    (SecondStretch.self_eq m ρ c).trans (selfTerm_eq m ρ c)
  rw [h0]
  show CombinedArray.combinedOf (W4 m ρ c (Proc.devRef .tc main_v34)) (V4 m ρ c main_v22_1) (V4 m ρ c main_v35) = _
  rw [e1, e2]
  refine StagedForms.combinedOf_eq _ _ _ (hiddenK m c) (argW2r m c) (argB2 m c) rfl (fun k => ?_)
  refine (SecondStretch.bias_entry m ρ c k).trans ?_
  rw [SecondStretch.bias_back m ρ c, FirstStretch.bias2_eq m ρ c]

/-- The run, read: the result buffer at the kernel program's result, the arguments as launched. -/
theorem run : θ_run defs (onTc (τ := τ) (main (F := Ideal))) ⟨m, fun _ => 0, ρ⟩ (fun r => ∀ c : Dev nD,
      r.2.mem ((c.tc : Thread nD τ).loc main_v36) = resultK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (NamedRun.run m ρ)

end Cert.KernelIdeal.KernelValue

end
-- ==== Proof.ReferenceValue.lean ====
/-
  The reference program's result as a function of its eight arguments.

  With x0 the node features [100000, 128], x1 the edge list [2, 640000] (row 0 the sources, row 1 the destinations),
  W1l, W1r : [256, 128], b1 : [256], W2l, W2r : [50, 256], b2 : [50], the reference computes

    agg1   = rows of x0 gathered at the edges' sources and added up at the edges' destinations, from zero,
    hidden = max ((agg1 · W1lᵀ + b1) + x0 · W1rᵀ, 0),
    agg2   = rows of hidden gathered and added up in the same way,
    result = (agg2 · W2lᵀ + b2) + hidden · W2rᵀ.

  The source column (negative row numbers wrapped by adding 100000) and the destination column are computed twice by
  the program, once per layer, by the same operations on the same argument: the two copies are one term. Each matrix
  product is read at an entry as the sum over the contracted axis, the transposed weight read at (k, c) being the
  weight at (c, k); each bias is broadcast along the rows; the zero of the rectifier is the real number 0. The two
  gathers and the two accumulating scatters are not read at an entry: they stay the aggregation of the specification.
-/
import proofs.«135750_j32238024524264_2_alg».proof.Proof.Gen.ReferenceIdeal.Read
import proofs.«135750_j32238024524264_2_alg».proof.Proof.SageSpec
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Cert.SageSpec Idealize.ShloMosaic Idealize.ShloMosaic.ValueIdx

/-- The source column: one row number per edge, a negative one wrapped by adding 100000. -/
abbrev srcIdx (x1 : (⟨S2x640000, .i32⟩ : BufTy).Contents (Elt Ideal)) : EdgeIdx := val_main_v9 (F := Ideal) x1
/-- The destination column: one row number per edge. -/
abbrev dstIdx (x1 : (⟨S2x640000, .i32⟩ : BufTy).Contents (Elt Ideal)) : EdgeIdx := val_main_v12 (F := Ideal) x1

/-- The second layer's index columns are the first layer's: the same operations on the same argument. -/
theorem second_indices (x1 : (⟨S2x640000, .i32⟩ : BufTy).Contents (Elt Ideal)) :
    val_main_v32 (F := Ideal) x1 = val_main_v9 (F := Ideal) x1 ∧ val_main_v35 (F := Ideal) x1 = val_main_v12 (F := Ideal) x1 :=
  ⟨rfl, rfl⟩

/-- The first aggregation: the rows of x0 gathered by source and added up by destination into zeros. -/
theorem agg1_eq (x0 : (⟨S100000x128, .f32⟩ : BufTy).Contents (Elt Ideal)) (x1 : (⟨S2x640000, .i32⟩ : BufTy).Contents (Elt Ideal)) :
    val_main_v13 (F := Ideal) x0 x1
      = aggregate gather_S100000x128_S640000x1_S640000x128_1_0_n_n_0_1_1128 scatter_S100000x128_S640000x1_S640000x128_1_0_0_1
          (srcIdx x1) (dstIdx x1) x0 :=
  rfl

/-! ### The index functions of the stages, at an index given by its coordinates -/

theorem lidx15 (n : Fin 100000) (c : Fin 256) (k : Fin 128) : lidx_main_v15 (ix2 n c) k = ix2 n k :=
  funext fun a => Fin.ext (by match a with | ⟨0, _⟩ => rfl | ⟨1, _⟩ => rfl)
theorem ridx15 (n : Fin 100000) (c : Fin 256) (k : Fin 128) : idx_main_v14 (ridx_main_v15 (ix2 n c) k) = ix2 c k :=
  funext fun a => Fin.ext (by match a with | ⟨0, _⟩ => rfl | ⟨1, _⟩ => rfl)
theorem lidx20 (n : Fin 100000) (c : Fin 256) (k : Fin 128) : lidx_main_v20 (ix2 n c) k = ix2 n k :=
  funext fun a => Fin.ext (by match a with | ⟨0, _⟩ => rfl | ⟨1, _⟩ => rfl)
theorem ridx20 (n : Fin 100000) (c : Fin 256) (k : Fin 128) : idx_main_v19 (ridx_main_v20 (ix2 n c) k) = ix2 c k :=
  funext fun a => Fin.ext (by match a with | ⟨0, _⟩ => rfl | ⟨1, _⟩ => rfl)
theorem bidx17 (n : Fin 100000) (c : Fin 256) : idx_main_v16 (idx_main_v17 (ix2 n c)) = ix1 c :=
  funext fun a => Fin.ext (by match a with | ⟨0, _⟩ => rfl)
theorem lidx38 (n : Fin 100000) (c : Fin 50) (k : Fin 256) : lidx_main_v38 (ix2 n c) k = ix2 n k :=
  funext fun a => Fin.ext (by match a with | ⟨0, _⟩ => rfl | ⟨1, _⟩ => rfl)
theorem ridx38 (n : Fin 100000) (c : Fin 50) (k : Fin 256) : idx_main_v37 (ridx_main_v38 (ix2 n c) k) = ix2 c k :=
  funext fun a => Fin.ext (by match a with | ⟨0, _⟩ => rfl | ⟨1, _⟩ => rfl)
theorem lidx43 (n : Fin 100000) (c : Fin 50) (k : Fin 256) : lidx_main_v43 (ix2 n c) k = ix2 n k :=
  funext fun a => Fin.ext (by match a with | ⟨0, _⟩ => rfl | ⟨1, _⟩ => rfl)
theorem ridx43 (n : Fin 100000) (c : Fin 50) (k : Fin 256) : idx_main_v42 (ridx_main_v43 (ix2 n c) k) = ix2 c k :=
  funext fun a => Fin.ext (by match a with | ⟨0, _⟩ => rfl | ⟨1, _⟩ => rfl)
theorem bidx40 (n : Fin 100000) (c : Fin 50) : idx_main_v39 (idx_main_v40 (ix2 n c)) = ix1 c :=
  funext fun a => Fin.ext (by match a with | ⟨0, _⟩ => rfl)

/-- The hidden layer: max ((agg1 · W1lᵀ + b1) + x0 · W1rᵀ, 0), entry by entry. -/
theorem hidden_eq (x0 : (⟨S100000x128, .f32⟩ : BufTy).Contents (Elt Ideal)) (x1 : (⟨S2x640000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) :
    val_main_v22 (F := Ideal) x0 x1 x2 x3 x4
      = hiddenBiasMid (aggregate gather_S100000x128_S640000x1_S640000x128_1_0_n_n_0_1_1128 scatter_S100000x128_S640000x1_S640000x128_1_0_0_1 (srcIdx x1) (dstIdx x1) x0) x0 x2 x4 x3 := by
  funext i
  obtain ⟨n, c, rfl⟩ : ∃ (n : Fin 100000) (c : Fin 256), i = ix2 n c := ⟨i 0, i 1, eq_ix2 i⟩
  rw [val_main_v22_apply, val_main_v21_apply, val_main_v18_apply, val_main_v15_apply, val_main_v20_apply,
    val_main_v17_apply, val_main_v16_apply, val_main_call0_v0_apply, val_main_call0_cst_apply, agg1_eq]
  simp only [val_main_v14_apply, val_main_v19_apply, lidx15, ridx15, lidx20, ridx20, bidx17]
  rw [show FloatOps.ofBits (F := Ideal) .f32 0x00000000#32 = (0 : EReal) from Ideal.ofBits_zero_f32]
  rfl

/-- The second aggregation: the rows of the hidden layer gathered by source and added up by destination into zeros. -/
theorem agg2_eq (x0 : (⟨S100000x128, .f32⟩ : BufTy).Contents (Elt Ideal)) (x1 : (⟨S2x640000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) :
    val_main_v36 (F := Ideal) x0 x1 x2 x3 x4
      = aggregate gather_S100000x256_S640000x1_S640000x256_1_0_n_n_0_1_1256 scatter_S100000x256_S640000x1_S640000x256_1_0_0_1 (srcIdx x1) (dstIdx x1) (val_main_v22 (F := Ideal) x0 x1 x2 x3 x4) :=
  rfl

/-- THE RESULT: (agg2 · W2lᵀ + b2) + hidden · W2rᵀ, entry by entry, with agg2 the aggregation of the hidden layer and the
    hidden layer the function of the first aggregation stated above. -/
theorem result_eq (x0 : (⟨S100000x128, .f32⟩ : BufTy).Contents (Elt Ideal)) (x1 : (⟨S2x640000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x5 : (⟨S50x256, .f32⟩ : BufTy).Contents (Elt Ideal)) (x6 : (⟨S50, .f32⟩ : BufTy).Contents (Elt Ideal)) (x7 : (⟨S50x256, .f32⟩ : BufTy).Contents (Elt Ideal)) :
    val_main_v44 (F := Ideal) x0 x1 x2 x3 x4 x5 x6 x7
      = resultFromAggregated
          (aggregate gather_S100000x256_S640000x1_S640000x256_1_0_n_n_0_1_1256 scatter_S100000x256_S640000x1_S640000x256_1_0_0_1 (srcIdx x1) (dstIdx x1)
            (hiddenBiasMid (aggregate gather_S100000x128_S640000x1_S640000x128_1_0_n_n_0_1_1128 scatter_S100000x128_S640000x1_S640000x128_1_0_0_1 (srcIdx x1) (dstIdx x1) x0) x0 x2 x4 x3))
          (hiddenBiasMid (aggregate gather_S100000x128_S640000x1_S640000x128_1_0_n_n_0_1_1128 scatter_S100000x128_S640000x1_S640000x128_1_0_0_1 (srcIdx x1) (dstIdx x1) x0) x0 x2 x4 x3) x5 x7 x6 := by
  funext i
  obtain ⟨n, c, rfl⟩ : ∃ (n : Fin 100000) (c : Fin 50), i = ix2 n c := ⟨i 0, i 1, eq_ix2 i⟩
  rw [val_main_v44_apply, val_main_v41_apply, val_main_v38_apply, val_main_v43_apply, val_main_v40_apply,
    val_main_v39_apply, agg2_eq, hidden_eq]
  simp only [val_main_v37_apply, val_main_v42_apply, lidx38, ridx38, lidx43, ridx43, bidx40]
  rfl

end Cert.ReferenceIdeal.RefValue

end
-- ==== Proof.LibRealSums.lean ====
/-
  Real-valued extended reals and the one law that needs them.

  On the extended reals addition is commutative and associative, but multiplication does not distribute over
  addition at the infinities. Sums of REAL numbers (extended reals that are neither infinity) behave as in the real
  field: they are closed under +, ·, max and finite sums, and a finite sum of reals times a real is the sum of the
  products. From that follows the exchange used for a graph layer: adding up, over the edges e that land on a node,
  the projected rows  ∑_k a(e,k) · w(k)  gives the same as projecting the added-up rows,
      ∑_e [e lands] ∑_k a(e,k) · w(k)  =  ∑_k (∑_e [e lands] a(e,k)) · w(k).
-/
import Mathlib.Data.EReal.Basic
import Mathlib.Data.EReal.Operations
import Mathlib.Algebra.BigOperators.Group.Finset.Basic
import Mathlib.Algebra.BigOperators.Ring.Finset
import Mathlib.Algebra.BigOperators.Group.Finset.Sigma

noncomputable section

open scoped BigOperators

namespace Cert.RealSums

/-- An extended real that is a real number. -/
def IsReal (x : EReal) : Prop := ∃ r : ℝ, x = (r : EReal)

theorem isReal_zero : IsReal 0 := ⟨0, EReal.coe_zero.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

theorem isReal_sum {ι : Type} (s : Finset ι) (f : ι → EReal) (h : ∀ i ∈ s, IsReal (f i)) : IsReal (∑ i ∈ s, f i) :=
  Finset.sum_induction f IsReal (fun _ _ => IsReal.add) isReal_zero h

theorem isReal_ite {p : Prop} [Decidable p] {x : EReal} (hx : IsReal x) : IsReal (if p then x else 0) := by
  split
  · exact hx
  · exact isReal_zero

/-- Right distributivity for three real numbers. -/
theorem add_mul_of_real {a b w : EReal} (ha : IsReal a) (hb : IsReal b) (hw : IsReal w) : (a + b) * w = a * w + b * w := by
  obtain ⟨a, rfl⟩ := ha
  obtain ⟨b, rfl⟩ := hb
  obtain ⟨w, rfl⟩ := hw
  exact_mod_cast congrArg (fun t : ℝ => (t : EReal)) (add_mul a b w)

/-- A finite sum of reals times a real is the sum of the products. -/
theorem sum_mul_of_real {ι : Type} (s : Finset ι) (a : ι → EReal) (w : EReal) (ha : ∀ i, IsReal (a i)) (hw : IsReal w) :
    (∑ i ∈ s, a i) * w = ∑ i ∈ s, a i * w := by
  classical
  induction s using Finset.induction_on with
  | empty => simp
  | insert i s hi ih =>
    rw [Finset.sum_insert hi, Finset.sum_insert hi, add_mul_of_real (ha i) (isReal_sum s a fun j _ => ha j) hw, ih]

/-- Projecting the rows that land and adding them up is adding them up and projecting, for real data. -/
theorem sum_ite_sum_mul {ι κ : Type} [Fintype ι] [Fintype κ] (p : ι → Prop) [DecidablePred p] (a : ι → κ → EReal) (w : κ → EReal)
    (ha : ∀ e k, IsReal (a e k)) (hw : ∀ k, IsReal (w k)) :
    ∑ e, (if p e then ∑ k, a e k * w k else 0) = ∑ k, (∑ e, if p e then a e k else 0) * w k := by
  have h1 : ∀ k, (∑ e, if p e then a e k else 0) * w k = ∑ e, if p e then a e k * w k else 0 := by
    intro k
    rw [sum_mul_of_real _ _ _ (fun e => isReal_ite (ha e k)) (hw k)]
    refine Finset.sum_congr rfl fun e _ => ?_
    split
    · rfl
    · exact zero_mul _
  rw [Finset.sum_congr rfl fun k _ => h1 k, Finset.sum_comm]
  refine Finset.sum_congr rfl fun e _ => ?_
  split
  · rfl
  · exact Finset.sum_const_zero.symm

end Cert.RealSums

end
-- ==== Proof.LibRowAggregate.lean ====
/-
  Rows gathered by one index vector and summed into rows named by another, read at an entry.

  Take a table `x : [N, W]` and a vector of `E` row numbers laid out as `[E, 1]`.

  * GATHER. `x[src]` is `stablehlo.gather` with offset_dims `[1]`, collapsed_slice_dims `[0]`, start_index_map `[0]`,
    index_vector_dim `1` and slice_sizes `[1, W]`; the result is `[E, W]`. Its entry `(e, f)` is `x` at row
    `clamp(src[e, 0])` and column `f`: the start index is read as a signed integer and clamped into `[0, N − 1]`
    (`srcRow`, `rowGather_apply`).

  * SCATTER-ADD. A segment sum of updates `upd : [E, W]` into an operand `x : [N, W]` is `stablehlo.scatter` with an
    `add` body, update_window_dims `[1]`, inserted_window_dims `[0]`, scatter_dims_to_operand_dims `[0]` and
    index_vector_dim `1`. Update entry `(e, f)` lands at operand entry `(dst[e, 0], f)`, the row number read as a signed
    integer and NOT clamped: an update whose row number is negative or at least `N` lands nowhere and is dropped
    (`lands`, `rowScatter_resultIdx_eq_some_iff`). Over the extended reals the result at `(r, c)` is therefore
    `x (r, c) + ∑ e, [dst[e, 0] = r] · upd (e, c)` (`rowScatterAdd_apply`): the sum over the rank-2 set of update
    indices splits into the double sum over `(e, f)`, and the inner sum over `f` keeps the one term `f = c`.

  * BOTH. Scatter-adding the gathered rows gives, at `(r, c)`,
    `x0 (r, c) + ∑ e, [dst[e, 0] = r] · feat (clamp(src[e, 0]), c)` (`aggregate_apply`): the sum, over the edges `e` whose
    destination is row `r`, of the source rows' entries in column `c`.

  All extents `N E W` and the index width `w` are variables; only the ranks and the dimension numbers are literal.
-/
import Idealize.ShloMosaic.PureOps.Ideal
import Idealize.ShloMosaic.Lib.ValueIdx

noncomputable section

open scoped BigOperators

namespace Cert.LibRowAggregate

open Idealize.ShloMosaic Idealize.ShloMosaic.ValueIdx

/-! ## Two axes: which of them the dimension numbers name -/

/-- On two axes, axis 1 is not in the list holding axis 0 alone. -/
private theorem one_not_mem : (1 : Fin 2) ∉ [(0 : Fin 2)] := by decide
/-- Of two axes, axis 0 is not among those left after removing axis 0. -/
private theorem zero_not_mem_kept : (0 : Fin 2) ∉ (List.finRange 2).filter (fun a : Fin 2 => a ∉ [(0 : Fin 2)]) := by decide
/-- Of two axes, axis 1 is among those left after removing axis 0. -/
private theorem one_mem_kept : (1 : Fin 2) ∈ (List.finRange 2).filter (fun a : Fin 2 => a ∉ [(0 : Fin 2)]) := by decide

/-! ## The dimension numbers -/

/-- The gather's dimension numbers for an operand `[N, W]`, start indices `[E, 1]` and a result `[E, W]`: whole rows
    (slice `[1, W]`, the row axis collapsed, the column axis the result's offset axis), the one component of each start
    index naming the row. Their conditions `wf` are decided on literal extents. -/
abbrev rowGatherDims (N E W : Nat)
    (wf : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wf

/-- The scatter's dimension numbers for an operand `[N, W]`, scatter indices `[E, 1]` and updates `[E, W]`: each update
    row is a window along the column axis, the row axis is inserted, and the one component of each scatter index names
    the row. Their conditions `wf` are decided on literal extents. -/
abbrev rowScatterDims (N E W : Nat)
    (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

/-! ## The gather read at an entry -/

/-- The row the gather reads for position `e`: the start index `idx[e, 0]` read as a signed integer and clamped into
    `[0, N − 1]` (a negative one reads row 0, one past the end reads the last row). -/
def srcRow {E w : Nat} (N : Nat) (hN : 0 < N) (idx : IVec ⟨2, ![E, 1]⟩ w) (e : Fin E) : Fin N :=
  ⟨min (idx (ix2 e (0 : Fin 1))).toInt.toNat (N - 1), by omega⟩

/-- THE GATHER READ AT `(e, f)`: the operand at row `srcRow e` and column `f`. On the row axis the operand coordinate is
    the clamped start (no batching, no offset: the axis is collapsed); on the column axis it is the result's own
    column (start `0`: the start index map does not name that axis). -/
theorem rowGather_apply {α : Type} {N E W w : Nat} (hN : 0 < N)
    (wf : GatherDims.WF ⟨2, ![N, W]⟩ ⟨2, ![E, 1]⟩ ⟨2, ![E, W]⟩ [1] [0] [] [0] [] 1 ![1, W])
    (x : (⟨2, ![N, W]⟩ : Shape).Idx → α) (idx : IVec ⟨2, ![E, 1]⟩ w) (e : Fin E) (f : Fin W) :
    Host.gather (rowGatherDims N E W wf) x idx (ix2 e f) = x (ix2 (srcRow N hN idx e) f) := by
  unfold Host.gather
  congr 1
  funext a
  refine Fin.ext ?_
  match a with
  | ⟨0, _⟩ =>
    show (rowGatherDims N E W wf).start (ix2 e f) idx 0 + (rowGatherDims N E W wf).batchCoord (ix2 e f) 0
      + (rowGatherDims N E W wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E W wf).startIndexMap from List.mem_singleton.mpr rfl)]
    have hsi : (rowGatherDims N E W wf).siIdx (ix2 e f) ⟨List.idxOf (0 : Fin 2) (rowGatherDims N E W wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E W wf).start (ix2 e f) idx 1 + (rowGatherDims N E W wf).batchCoord (ix2 e f) 1
      + (rowGatherDims N E W wf).offCoord (ix2 e f) 1 = _
    rw [GatherDims.batchCoord_eq_zero _ _ _ List.not_mem_nil]
    have hs : (rowGatherDims N E W wf).start (ix2 e f) idx 1 = 0 := by
      unfold GatherDims.start
      rw [dif_neg (show (1 : Fin 2) ∉ (rowGatherDims N E W wf).startIndexMap from one_not_mem)]
    have ho : (rowGatherDims N E W wf).offCoord (ix2 e f) 1 = f.val := by
      unfold GatherDims.offCoord
      rw [dif_pos (show (1 : Fin 2) ∈ (rowGatherDims N E W wf).sKept from one_mem_kept)]
      rfl
    rw [hs, ho]
    simp

/-! ## Where an update lands -/

/-- Update row `e` lands on operand row `r`: the scatter index `idx[e, 0]`, read as a signed integer, IS `r` (no
    clamping: a negative row number, or one that is `N` or more, lands on no row). -/
def lands {N E w : Nat} (idx : IVec ⟨2, ![E, 1]⟩ w) (e : Fin E) (r : Fin N) : Prop :=
  (idx (ix2 e (0 : Fin 1))).toInt = (r.val : Int)

instance {N E w : Nat} (idx : IVec ⟨2, ![E, 1]⟩ w) (e : Fin E) (r : Fin N) : Decidable (lands idx e r) := by
  unfold lands; infer_instance

/-- On the row axis, update entry `(e, f)` goes to the signed scatter index `idx[e, 0]`: the start is that index and
    the window coordinate is `0` (the axis is inserted). -/
theorem rowScatter_pos0 {N E W w : Nat}
    (wf : ScatterDims.WF ⟨2, ![N, W]⟩ ⟨2, ![E, 1]⟩ ⟨2, ![E, W]⟩ [1] [0] [0] 1)
    (idx : IVec ⟨2, ![E, 1]⟩ w) (e : Fin E) (f : Fin W) :
    (rowScatterDims N E W wf).start (ix2 e f) idx 0 + (rowScatterDims N E W wf).window (ix2 e f) 0
      = (idx (ix2 e (0 : Fin 1))).toInt := by
  have hw : (rowScatterDims N E W wf).window (ix2 e f) 0 = 0 := by
    unfold ScatterDims.window
    rw [dif_neg (show (0 : Fin 2) ∉ (rowScatterDims N E W wf).sKept from zero_not_mem_kept)]
  rw [hw]
  unfold ScatterDims.start
  rw [dif_pos (show (0 : Fin 2) ∈ (rowScatterDims N E W wf).scatterDimsToOperandDims from List.mem_singleton.mpr rfl)]
  have hsi : (rowScatterDims N E W wf).siIdx (ix2 e f) ⟨List.idxOf (0 : Fin 2) (rowScatterDims N E W wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  simp

/-- On the column axis, update entry `(e, f)` goes to column `f`: the start is `0` (the map does not name the axis) and
    the window coordinate is the update's own column. -/
theorem rowScatter_pos1 {N E W w : Nat}
    (wf : ScatterDims.WF ⟨2, ![N, W]⟩ ⟨2, ![E, 1]⟩ ⟨2, ![E, W]⟩ [1] [0] [0] 1)
    (idx : IVec ⟨2, ![E, 1]⟩ w) (e : Fin E) (f : Fin W) :
    (rowScatterDims N E W wf).start (ix2 e f) idx 1 + (rowScatterDims N E W wf).window (ix2 e f) 1
      = (f.val : Int) := by
  have hs : (rowScatterDims N E W wf).start (ix2 e f) idx 1 = 0 := by
    unfold ScatterDims.start
    rw [dif_neg (show (1 : Fin 2) ∉ (rowScatterDims N E W wf).scatterDimsToOperandDims from one_not_mem)]
  have hw : (rowScatterDims N E W wf).window (ix2 e f) 1 = f.val := by
    unfold ScatterDims.window
    rw [dif_pos (show (1 : Fin 2) ∈ (rowScatterDims N E W wf).sKept from one_mem_kept)]
    rfl
  rw [hs, hw]
  simp

/-- WHERE UPDATE ENTRY `(e, f)` LANDS: at operand entry `(r, c)` exactly when its row lands on `r` and its column is `c`.
    (If the signed row number is outside `[0, N)` the entry lands nowhere, and then it lands on no `r`.) -/
theorem rowScatter_resultIdx_eq_some_iff {N E W w : Nat}
    (wf : ScatterDims.WF ⟨2, ![N, W]⟩ ⟨2, ![E, 1]⟩ ⟨2, ![E, W]⟩ [1] [0] [0] 1)
    (idx : IVec ⟨2, ![E, 1]⟩ w) (e : Fin E) (f : Fin W) (r : Fin N) (c : Fin W) :
    (rowScatterDims N E W wf).resultIdx? (ix2 e f) idx = some (ix2 r c) ↔ (lands idx e r ∧ f = c) := by
  have h0 := rowScatter_pos0 wf idx e f
  have h1 := rowScatter_pos1 wf idx e f
  unfold ScatterDims.resultIdx?
  unfold lands
  constructor
  · intro h
    split at h
    · rename_i hall
      have heq := Option.some.inj h
      have e0 : ((rowScatterDims N E W wf).start (ix2 e f) idx 0 + (rowScatterDims N E W wf).window (ix2 e f) 0).toNat = r.val :=
        congrArg Fin.val (congrFun heq (0 : Fin 2))
      have e1 : ((rowScatterDims N E W wf).start (ix2 e f) idx 1 + (rowScatterDims N E W wf).window (ix2 e f) 1).toNat = c.val :=
        congrArg Fin.val (congrFun heq (1 : Fin 2))
      have p0 := (hall (0 : Fin 2)).1
      rw [h0] at e0 p0
      rw [h1] at e1
      refine ⟨by omega, Fin.ext (by omega)⟩
    · exact absurd h (by simp)
  · rintro ⟨hl, rfl⟩
    have hall : ∀ a : Fin 2, 0 ≤ (rowScatterDims N E W wf).start (ix2 e f) idx a + (rowScatterDims N E W wf).window (ix2 e f) a ∧
        (rowScatterDims N E W wf).start (ix2 e f) idx a + (rowScatterDims N E W wf).window (ix2 e f) a
          < ((⟨2, ![N, W]⟩ : Shape).size a : Int) := by
      intro a
      match a with
      | ⟨0, _⟩ =>
        show 0 ≤ (rowScatterDims N E W wf).start (ix2 e f) idx 0 + (rowScatterDims N E W wf).window (ix2 e f) 0 ∧
          (rowScatterDims N E W wf).start (ix2 e f) idx 0 + (rowScatterDims N E W wf).window (ix2 e f) 0 < (N : Int)
        rw [h0, hl]; have := r.isLt; omega
      | ⟨1, _⟩ =>
        show 0 ≤ (rowScatterDims N E W wf).start (ix2 e f) idx 1 + (rowScatterDims N E W wf).window (ix2 e f) 1 ∧
          (rowScatterDims N E W wf).start (ix2 e f) idx 1 + (rowScatterDims N E W wf).window (ix2 e f) 1 < (W : Int)
        rw [h1]; have := f.isLt; omega
    rw [dif_pos hall]
    congr 1
    funext a
    refine Fin.ext ?_
    match a with
    | ⟨0, _⟩ =>
      show ((rowScatterDims N E W wf).start (ix2 e f) idx 0 + (rowScatterDims N E W wf).window (ix2 e f) 0).toNat = r.val
      rw [h0, hl]; simp
    | ⟨1, _⟩ =>
      show ((rowScatterDims N E W wf).start (ix2 e f) idx 1 + (rowScatterDims N E W wf).window (ix2 e f) 1).toNat = f.val
      rw [h1]; simp

/-! ## The scatter-add read at an entry -/

/-- THE SCATTER-ADD READ AT `(r, c)`, over the extended reals: the operand's entry plus the sum, over the update rows
    `e` that land on row `r`, of the update's entry `(e, c)`. The sum over the update entries that land at `(r, c)` is the
    double sum over `(e, f)` of the entries with `lands e r` and `f = c`; for each `e` the inner sum keeps the one
    term `f = c`. Only commutativity and associativity of the sum are used, so infinite entries need no care. -/
theorem rowScatterAdd_apply {N E W w : Nat}
    (wf : ScatterDims.WF ⟨2, ![N, W]⟩ ⟨2, ![E, 1]⟩ ⟨2, ![E, W]⟩ [1] [0] [0] 1)
    (x : (⟨2, ![N, W]⟩ : Shape).Idx → EReal) (idx : IVec ⟨2, ![E, 1]⟩ w)
    (upd : (⟨2, ![E, W]⟩ : Shape).Idx → EReal) (r : Fin N) (c : Fin W) :
    Ideal.hostScatterAdd (rowScatterDims N E W wf) x idx upd (ix2 r c)
      = x (ix2 r c) + ∑ e : Fin E, if lands idx e r then upd (ix2 e c) else 0 := by
  unfold Ideal.hostScatterAdd
  congr 1
  rw [Finset.sum_filter, sum_idx2]
  refine Finset.sum_congr rfl fun e _ => ?_
  simp only [rowScatter_resultIdx_eq_some_iff]
  by_cases hl : lands idx e r
  · simp [hl]
  · simp [hl]

/-! ## Gathered rows, scatter-added -/

/-- GATHER THEN SCATTER-ADD, READ AT `(r, c)`: the operand's entry plus the sum, over the positions `e` whose
    destination `didx[e, 0]` is row `r`, of `feat` at the (clamped) source row `sidx[e, 0]` and column `c`. -/
theorem aggregate_apply {N E W w : Nat} (hN : 0 < N)
    (wfs : ScatterDims.WF ⟨2, ![N, W]⟩ ⟨2, ![E, 1]⟩ ⟨2, ![E, W]⟩ [1] [0] [0] 1)
    (wfg : GatherDims.WF ⟨2, ![N, W]⟩ ⟨2, ![E, 1]⟩ ⟨2, ![E, W]⟩ [1] [0] [] [0] [] 1 ![1, W])
    (x0 : (⟨2, ![N, W]⟩ : Shape).Idx → EReal) (didx sidx : IVec ⟨2, ![E, 1]⟩ w)
    (feat : (⟨2, ![N, W]⟩ : Shape).Idx → EReal) (r : Fin N) (c : Fin W) :
    Ideal.hostScatterAdd (rowScatterDims N E W wfs) x0 didx (Host.gather (rowGatherDims N E W wfg) feat sidx) (ix2 r c)
      = x0 (ix2 r c) + ∑ e : Fin E, if lands didx e r then feat (ix2 (srcRow N hN sidx e) c) else 0 := by
  rw [rowScatterAdd_apply]
  congr 1
  refine Finset.sum_congr rfl fun e _ => ?_
  rw [rowGather_apply hN]

/-! ## The same two reads, stated on the host operation at the extended-real instance -/

/-- `rowScatterAdd_apply` for the host's accumulating scatter itself: at the extended-real instance it is the exact sum
    above, at every float format `φ` (the format does not enter: the values are extended reals). -/
theorem rowHostScatterAdd_apply {φ : FTy} {N E W w : Nat}
    (wf : ScatterDims.WF ⟨2, ![N, W]⟩ ⟨2, ![E, 1]⟩ ⟨2, ![E, W]⟩ [1] [0] [0] 1)
    (x : FVec Ideal ⟨2, ![N, W]⟩ φ) (idx : IVec ⟨2, ![E, 1]⟩ w)
    (upd : FVec Ideal ⟨2, ![E, W]⟩ φ) (r : Fin N) (c : Fin W) :
    Host.scatterAdd (rowScatterDims N E W wf) x idx upd (ix2 r c)
      = x (ix2 r c) + ∑ e : Fin E, if lands idx e r then upd (ix2 e c) else 0 :=
  rowScatterAdd_apply wf x idx upd r c

/-- `aggregate_apply` for the host's accumulating scatter itself, at the extended-real instance. -/
theorem hostAggregate_apply {φ : FTy} {N E W w : Nat} (hN : 0 < N)
    (wfs : ScatterDims.WF ⟨2, ![N, W]⟩ ⟨2, ![E, 1]⟩ ⟨2, ![E, W]⟩ [1] [0] [0] 1)
    (wfg : GatherDims.WF ⟨2, ![N, W]⟩ ⟨2, ![E, 1]⟩ ⟨2, ![E, W]⟩ [1] [0] [] [0] [] 1 ![1, W])
    (x0 : FVec Ideal ⟨2, ![N, W]⟩ φ) (didx sidx : IVec ⟨2, ![E, 1]⟩ w)
    (feat : FVec Ideal ⟨2, ![N, W]⟩ φ) (r : Fin N) (c : Fin W) :
    Host.scatterAdd (rowScatterDims N E W wfs) x0 didx (Host.gather (rowGatherDims N E W wfg) feat sidx) (ix2 r c)
      = x0 (ix2 r c) + ∑ e : Fin E, if lands didx e r then feat (ix2 (srcRow N hN sidx e) c) else 0 :=
  aggregate_apply hN wfs wfg x0 didx sidx feat r c

end Cert.LibRowAggregate

end
-- ==== Proof.SageBridge.lean ====
/-
  Aggregating projected rows is projecting aggregated rows, and with it the two arrangements of the two-layer graph
  network agree.

  `aggregate feat` gathers, for every edge `e`, the row of `feat` at the edge's source node and adds it into the row of
  the edge's destination node, starting from zeros. Read entry by entry,

      aggregate feat (r, c) = ∑_e [dst e = r] · feat (src e, c)            (`aggregate_entry`)

  where the destination is compared unclamped (an out-of-range destination lands nowhere) and the source row is
  clamped into range. A sum of real numbers is real, so aggregation, projection and the hidden layer keep real
  data real (`aggregate_isReal`, `proj_isReal`, `hidden_isReal`). For real `h` and real weights `Wt`,

      ∑_e [dst e = r] ∑_k h(src e, k) · Wt(c, k)  =  ∑_k (∑_e [dst e = r] h(src e, k)) · Wt(c, k)   (`aggregate_proj`)

  which is an exchange of two finite sums together with distributivity of · over + on the reals (it fails at the
  infinities, hence the hypotheses). That is the one fact the comparison of the two arrangements of layer 2 asks
  for (`arrangements_agree`); the rest is commutativity and associativity of +.
-/
import proofs.«135750_j32238024524264_2_alg».proof.Proof.SageSpec
import proofs.«135750_j32238024524264_2_alg».proof.Proof.LibRealSums
import proofs.«135750_j32238024524264_2_alg».proof.Proof.LibRowAggregate
import Idealize.ShloMosaic.PureOps.Ideal.Laws

noncomputable section

open scoped BigOperators

namespace Cert.SageBridge

open Cert.SageSpec Cert.RealSums Cert.LibRowAggregate Idealize.ShloMosaic Idealize.ShloMosaic.ValueIdx

/-- THE AGGREGATION READ AT `(r, c)`: the sum, over the edges whose destination is row `r`, of `feat` at the edge's
    (clamped) source row and column `c`. The accumulation starts from the 32-bit float zero, which is the extended
    real `0`. -/
theorem aggregate_entry {W : Nat}
    (gd : GatherDims ⟨2, ![100000, W]⟩ ⟨2, ![640000, 1]⟩ ⟨2, ![640000, W]⟩)
    (sd : ScatterDims ⟨2, ![100000, W]⟩ ⟨2, ![640000, 1]⟩ ⟨2, ![640000, W]⟩)
    (wfg : GatherDims.WF ⟨2, ![100000, W]⟩ ⟨2, ![640000, 1]⟩ ⟨2, ![640000, W]⟩ [1] [0] [] [0] [] 1 ![1, W])
    (wfs : ScatterDims.WF ⟨2, ![100000, W]⟩ ⟨2, ![640000, 1]⟩ ⟨2, ![640000, W]⟩ [1] [0] [0] 1)
    (hg : gd = rowGatherDims 100000 640000 W wfg) (hs : sd = rowScatterDims 100000 640000 W wfs)
    (sidx didx : EdgeIdx) (feat : Mat 100000 W) (r : Fin 100000) (c : Fin W) :
    aggregate gd sd sidx didx feat (ix2 r c)
      = ∑ e : Fin 640000, if lands didx e r then feat (ix2 (srcRow 100000 (by decide) sidx e) c) else 0 := by
  subst hg hs
  unfold aggregate
  rw [aggregate_apply (by decide : 0 < 100000) wfs wfg, Ideal.ofBits_zero_f32, zero_add]

/-- Aggregating real rows gives real rows: every entry is a finite sum of entries of `feat` and zeros. -/
theorem aggregate_isReal {W : Nat}
    (gd : GatherDims ⟨2, ![100000, W]⟩ ⟨2, ![640000, 1]⟩ ⟨2, ![640000, W]⟩)
    (sd : ScatterDims ⟨2, ![100000, W]⟩ ⟨2, ![640000, 1]⟩ ⟨2, ![640000, W]⟩)
    (wfg : GatherDims.WF ⟨2, ![100000, W]⟩ ⟨2, ![640000, 1]⟩ ⟨2, ![640000, W]⟩ [1] [0] [] [0] [] 1 ![1, W])
    (wfs : ScatterDims.WF ⟨2, ![100000, W]⟩ ⟨2, ![640000, 1]⟩ ⟨2, ![640000, W]⟩ [1] [0] [0] 1)
    (hg : gd = rowGatherDims 100000 640000 W wfg) (hs : sd = rowScatterDims 100000 640000 W wfs)
    (sidx didx : EdgeIdx) (feat : Mat 100000 W) (hf : ∀ i, IsReal (feat i))
    (i : (⟨2, ![100000, W]⟩ : Shape).Idx) : IsReal (aggregate gd sd sidx didx feat i) := by
  obtain ⟨r, c, rfl⟩ : ∃ r c, i = ix2 r c := ⟨_, _, eq_ix2 i⟩
  rw [aggregate_entry gd sd wfg wfs hg hs]
  exact isReal_sum _ _ fun e _ => isReal_ite (hf _)

/-- Projecting real rows by real weights gives real rows: every entry is a finite sum of products of reals. -/
theorem proj_isReal {N K C : Nat} (h : Mat N K) (Wt : Mat C K) (hh : ∀ i, IsReal (h i)) (hW : ∀ i, IsReal (Wt i))
    (i : (⟨2, ![N, C]⟩ : Shape).Idx) : IsReal (proj h Wt i) := by
  unfold proj
  exact isReal_sum _ _ fun k _ => (hh _).mul (hW _)

/-- The hidden layer of real data is real: two projections and a bias added, then the maximum with `0`. -/
theorem hidden_isReal (a x : Mat 100000 128) (Wl Wr : Mat 256 128) (b : Row 256)
    (ha : ∀ i, IsReal (a i)) (hx : ∀ i, IsReal (x i)) (hWl : ∀ i, IsReal (Wl i)) (hWr : ∀ i, IsReal (Wr i))
    (hb : ∀ i, IsReal (b i)) : ∀ i, IsReal (hiddenBiasMid a x Wl Wr b i) := by
  intro i
  unfold hiddenBiasMid
  exact (((proj_isReal a Wl ha hWl i).add (hb _)).add (proj_isReal x Wr hx hWr i)).max isReal_zero

/-- THE EXCHANGE: aggregating the 50-wide projected rows is projecting the 256-wide aggregated rows, for real rows and
    real weights. At `(r, c)` the left side is `∑_e [dst e = r] ∑_k h(src e, k) · Wt(c, k)` and the right side
    `∑_k (∑_e [dst e = r] h(src e, k)) · Wt(c, k)`. -/
theorem aggregate_proj
    (gd50 : GatherDims ⟨2, ![100000, 50]⟩ ⟨2, ![640000, 1]⟩ ⟨2, ![640000, 50]⟩)
    (sd50 : ScatterDims ⟨2, ![100000, 50]⟩ ⟨2, ![640000, 1]⟩ ⟨2, ![640000, 50]⟩)
    (wfg50 : GatherDims.WF ⟨2, ![100000, 50]⟩ ⟨2, ![640000, 1]⟩ ⟨2, ![640000, 50]⟩ [1] [0] [] [0] [] 1 ![1, 50])
    (wfs50 : ScatterDims.WF ⟨2, ![100000, 50]⟩ ⟨2, ![640000, 1]⟩ ⟨2, ![640000, 50]⟩ [1] [0] [0] 1)
    (hg50 : gd50 = rowGatherDims 100000 640000 50 wfg50) (hs50 : sd50 = rowScatterDims 100000 640000 50 wfs50)
    (gd256 : GatherDims ⟨2, ![100000, 256]⟩ ⟨2, ![640000, 1]⟩ ⟨2, ![640000, 256]⟩)
    (sd256 : ScatterDims ⟨2, ![100000, 256]⟩ ⟨2, ![640000, 1]⟩ ⟨2, ![640000, 256]⟩)
    (wfg256 : GatherDims.WF ⟨2, ![100000, 256]⟩ ⟨2, ![640000, 1]⟩ ⟨2, ![640000, 256]⟩ [1] [0] [] [0] [] 1 ![1, 256])
    (wfs256 : ScatterDims.WF ⟨2, ![100000, 256]⟩ ⟨2, ![640000, 1]⟩ ⟨2, ![640000, 256]⟩ [1] [0] [0] 1)
    (hg256 : gd256 = rowGatherDims 100000 640000 256 wfg256) (hs256 : sd256 = rowScatterDims 100000 640000 256 wfs256)
    (sidx didx : EdgeIdx) (h : Mat 100000 256) (Wt : Mat 50 256) (hh : ∀ i, IsReal (h i)) (hW : ∀ i, IsReal (Wt i))
    (i : (⟨2, ![100000, 50]⟩ : Shape).Idx) :
    aggregate gd50 sd50 sidx didx (proj h Wt) i = proj (aggregate gd256 sd256 sidx didx h) Wt i := by
  obtain ⟨r, c, rfl⟩ : ∃ r c, i = ix2 r c := ⟨_, _, eq_ix2 i⟩
  rw [aggregate_entry gd50 sd50 wfg50 wfs50 hg50 hs50]
  simp only [proj_entry, aggregate_entry gd256 sd256 wfg256 wfs256 hg256 hs256]
  exact sum_ite_sum_mul (fun e => lands didx e r) (fun e k => h (ix2 (srcRow 100000 (by decide) sidx e) k))
    (fun k => Wt (ix2 c k)) (fun _ _ => hh _) (fun _ => hW _)

/-- THE TWO ARRANGEMENTS AGREE on real inputs and weights: the hidden layers differ by the order of three summands,
    and layer 2 by the exchange above, applied to the hidden rows (real, as the inputs are). -/
theorem arrangements_agree
    (gd128 : GatherDims ⟨2, ![100000, 128]⟩ ⟨2, ![640000, 1]⟩ ⟨2, ![640000, 128]⟩)
    (sd128 : ScatterDims ⟨2, ![100000, 128]⟩ ⟨2, ![640000, 1]⟩ ⟨2, ![640000, 128]⟩)
    (wfg128 : GatherDims.WF ⟨2, ![100000, 128]⟩ ⟨2, ![640000, 1]⟩ ⟨2, ![640000, 128]⟩ [1] [0] [] [0] [] 1 ![1, 128])
    (wfs128 : ScatterDims.WF ⟨2, ![100000, 128]⟩ ⟨2, ![640000, 1]⟩ ⟨2, ![640000, 128]⟩ [1] [0] [0] 1)
    (hg128 : gd128 = rowGatherDims 100000 640000 128 wfg128) (hs128 : sd128 = rowScatterDims 100000 640000 128 wfs128)
    (gd256 : GatherDims ⟨2, ![100000, 256]⟩ ⟨2, ![640000, 1]⟩ ⟨2, ![640000, 256]⟩)
    (sd256 : ScatterDims ⟨2, ![100000, 256]⟩ ⟨2, ![640000, 1]⟩ ⟨2, ![640000, 256]⟩)
    (wfg256 : GatherDims.WF ⟨2, ![100000, 256]⟩ ⟨2, ![640000, 1]⟩ ⟨2, ![640000, 256]⟩ [1] [0] [] [0] [] 1 ![1, 256])
    (wfs256 : ScatterDims.WF ⟨2, ![100000, 256]⟩ ⟨2, ![640000, 1]⟩ ⟨2, ![640000, 256]⟩ [1] [0] [0] 1)
    (hg256 : gd256 = rowGatherDims 100000 640000 256 wfg256) (hs256 : sd256 = rowScatterDims 100000 640000 256 wfs256)
    (gd50 : GatherDims ⟨2, ![100000, 50]⟩ ⟨2, ![640000, 1]⟩ ⟨2, ![640000, 50]⟩)
    (sd50 : ScatterDims ⟨2, ![100000, 50]⟩ ⟨2, ![640000, 1]⟩ ⟨2, ![640000, 50]⟩)
    (wfg50 : GatherDims.WF ⟨2, ![100000, 50]⟩ ⟨2, ![640000, 1]⟩ ⟨2, ![640000, 50]⟩ [1] [0] [] [0] [] 1 ![1, 50])
    (wfs50 : ScatterDims.WF ⟨2, ![100000, 50]⟩ ⟨2, ![640000, 1]⟩ ⟨2, ![640000, 50]⟩ [1] [0] [0] 1)
    (hg50 : gd50 = rowGatherDims 100000 640000 50 wfg50) (hs50 : sd50 = rowScatterDims 100000 640000 50 wfs50)
    (sidx didx : EdgeIdx) (x : Mat 100000 128) (W1l W1r : Mat 256 128) (b1 : Row 256) (W2l W2r : Mat 50 256) (b2 : Row 50)
    (hx : ∀ i, IsReal (x i)) (hW1l : ∀ i, IsReal (W1l i)) (hb1 : ∀ i, IsReal (b1 i)) (hW1r : ∀ i, IsReal (W1r i))
    (hW2l : ∀ i, IsReal (W2l i)) :
    resultFromProjected
        (aggregate gd50 sd50 sidx didx (proj (hiddenBiasLast (aggregate gd128 sd128 sidx didx x) x W1l W1r b1) W2l))
        (hiddenBiasLast (aggregate gd128 sd128 sidx didx x) x W1l W1r b1) W2r b2
      = resultFromAggregated
        (aggregate gd256 sd256 sidx didx (hiddenBiasMid (aggregate gd128 sd128 sidx didx x) x W1l W1r b1))
        (hiddenBiasMid (aggregate gd128 sd128 sidx didx x) x W1l W1r b1) W2l W2r b2 := by
  rw [hidden_eq]
  exact result_eq _ _ _ _ _ _ fun i =>
    aggregate_proj gd50 sd50 wfg50 wfs50 hg50 hs50 gd256 sd256 wfg256 wfs256 hg256 hs256 sidx didx _ W2l
      (hidden_isReal _ x W1l W1r b1 (aggregate_isReal gd128 sd128 wfg128 wfs128 hg128 hs128 sidx didx x hx) hx hW1l hW1r hb1)
      hW2l i

end Cert.SageBridge

end
-- ==== Proof.FiniteInputs.lean ====
/-
  The precondition "every float input is finite", read back element by element.

  The precondition is printed as a function of the eight argument arrays: for each of the seven float arrays x it
  forms the array of bits |x i| < +∞ (the comparison of extended reals against the value the pattern 0x7F800000
  denotes, which is ⊤), reduces that array by `and` from the bit 1 over all of its axes, and joins the seven
  resulting bits by `and`. The claim's hypothesis says the result is the bit 1.

  A chain of `and`s that is 1 has every operand 1; a reduction by `and` over all axes that is 1 met a 1 at every
  index; and an extended real x with max x (-x) < ⊤ is neither ⊤ nor ⊥, that is, it is (the image of) a real number.
  Hence under the precondition every entry of every float argument is a real number. The theorems below state this
  for the five arrays arguments 0, 2, 3, 4 and 5, first over the printed function with the arrays as variables and
  then through a memory of which the certificate's precondition holds.
-/
import proofs.«135750_j32238024524264_2_alg».proof.Defs
import proofs.«135750_j32238024524264_2_alg».proof.Proof.Gen.Pre_finite_inputs
import Idealize.ShloMosaic.Lib.ReduceAll
import Idealize.ShloMosaic.Lib.ValueIdx

noncomputable section

namespace Cert.FiniteInputs

open Idealize.ShloMosaic Idealize.SL.Sem
open Cert.Pre_finite_inputs

/-- The rank-0 shape has exactly one index. -/
instance subsingleton_scalar_idx : Subsingleton S_.Idx := ⟨fun a b => funext fun d => d.elim0⟩

/-- The f32 pattern 0x7F800000 denotes +∞. -/
theorem ofBits_inf : Ideal.ofBits .f32 0x7F800000#32 = (⊤ : EReal) := by simp [Ideal.ofBits, Ideal.ieee]

/-- An extended real whose absolute value max x (-x) compares below +∞ is a real number. -/
theorem real_of_abs_lt_inf (x : EReal)
    (h : FloatOps.cmpf (F := Ideal) (φ := .f32) .olt (FloatOps.hostAbsf (F := Ideal) (φ := .f32) x)
          (FloatOps.ofBits (F := Ideal) .f32 0x7F800000#32) = 1#1) :
    ∃ r : ℝ, x = (r : EReal) := by
  have h' : Ideal.cmp .olt (max x (-x)) (Ideal.ofBits .f32 0x7F800000#32) = 1#1 := h
  rw [ofBits_inf] at h'
  unfold Ideal.cmp at h'
  induction x using EReal.rec with
  | bot => simp at h'
  | top => simp at h'
  | coe r => exact ⟨r, rfl⟩

/-- The conjunction of |x i| < +∞ over all entries of an array of any shape: if the reduction by `and` of the bits |x i| < +∞ over all axes,
    from the bit 1, is 1, then every entry of x is a real number. -/
theorem real_of_all {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi (cmpf .olt (Host.absf x) (broadcastInDim s ![] hb (constant S_ .f32 0x7F800000#32)))
          (constantI S_ 1 1#1) hr hu j = 1#1) (i : s.Idx) :
    ∃ r : ℝ, x i = (r : EReal) :=
  real_of_abs_lt_inf (x i) (Host.reduce_andi_all _ _ hr hu j e i)

/-- Under the printed precondition, with the eight argument arrays as variables: every entry of arguments 0, 2, 3, 4 and
    5 is a real number. (Arguments 6 and 7 are finite too; they are not needed.) -/
theorem real_of_fn [Facts] (a0 : FVec Ideal S100000x128 .f32) (a1 : IVec S2x640000 32) (a2 : FVec Ideal S256x128 .f32)
    (a3 : FVec Ideal S256 .f32) (a4 : FVec Ideal S256x128 .f32) (a5 : FVec Ideal S50x256 .f32) (a6 : FVec Ideal S50 .f32)
    (a7 : FVec Ideal S50x256 .f32)
    (h : Cert.Pre_finite_inputs.fn (F := Ideal) a0 a1 a2 a3 a4 a5 a6 a7 = (fun _ => 1#1)) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) := by
  have e := congrFun h ValueIdx.ix0
  dsimp only [Cert.Pre_finite_inputs.fn, Cert.Pre_finite_inputs.fn_part1, andi] at e
  simp only [IntOp.andi_eq_one] at e
  obtain ⟨⟨⟨⟨⟨⟨h0, h2⟩, h3⟩, h4⟩, h5⟩, -⟩, -⟩ := e
  exact ⟨real_of_all a0 _ _ _ _ h0, real_of_all a2 _ _ _ _ h2, real_of_all a3 _ _ _ _ h3, real_of_all a4 _ _ _ _ h4,
    real_of_all a5 _ _ _ _ h5⟩

/-- Under the certificate's precondition on a memory m, on every device: every entry of the argument arrays 0, 2, 3, 4
    and 5 the memory holds is a real number. -/
theorem real_of_pre [Facts] (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal))
      ∧ (∀ i, ∃ r : ℝ, m ((c.tc : Thread Cert.KernelIdeal.nD Cert.KernelIdeal.τ).loc Cert.KernelIdeal.main_arg4) i = (r : EReal))
      ∧ (∀ i, ∃ r : ℝ, m ((c.tc : Thread Cert.KernelIdeal.nD Cert.KernelIdeal.τ).loc Cert.KernelIdeal.main_arg5) i = (r : EReal)) :=
  real_of_fn _ _ _ _ _ _ _ _ (hpre c)

end Cert.FiniteInputs

end
-- ==== Proof.lean ====
/-
  A two-layer graph network: the kernel program against its reference, over the extended reals.

  Both programs aggregate along the same edges — every edge reads the row of its (wrapped) source node and adds it to
  the row of its destination node — and apply the same two dense layers. They differ in two places. In layer 1 the
  three summands are added in different orders, which is immaterial on all extended reals. In layer 2 the kernel
  projects the hidden rows to width 50 BEFORE aggregating and the reference aggregates the 256-wide hidden rows and
  projects afterwards; the two agree because a finite sum of real numbers times a real number is the sum of the
  products, which is where the precondition is used: finite inputs make the aggregated features, hence the hidden
  layer, real-valued, and the layer-2 weights are real. (At the infinities the exchange is false.)

  The kernel program's run and the value of its result buffer are read through its three regions and two stretches
  of host operations; the reference's run and value stage by stage; the two values are the two arrangements of one
  specification, which agree for real data.
-/
import proofs.«135750_j32238024524264_2_alg».proof.Defs
import proofs.«135750_j32238024524264_2_alg».proof.Proof.Gen.Kernel
import proofs.«135750_j32238024524264_2_alg».proof.Proof.Gen.Kernel.Skeleton
import proofs.«135750_j32238024524264_2_alg».proof.Proof.Gen.Kernel.Launch
import proofs.«135750_j32238024524264_2_alg».proof.Proof.Gen.Kernel.Points
import proofs.«135750_j32238024524264_2_alg».proof.Proof.Gen.Kernel.Frame
import proofs.«135750_j32238024524264_2_alg».proof.Proof.Gen.KernelIdeal
import proofs.«135750_j32238024524264_2_alg».proof.Proof.Gen.KernelIdeal.Skeleton
import proofs.«135750_j32238024524264_2_alg».proof.Proof.Gen.KernelIdeal.Launch
import proofs.«135750_j32238024524264_2_alg».proof.Proof.Gen.KernelIdeal.Points
import proofs.«135750_j32238024524264_2_alg».proof.Proof.Gen.KernelIdeal.Frame
import proofs.«135750_j32238024524264_2_alg».proof.Proof.Gen.ReferenceIdeal
import proofs.«135750_j32238024524264_2_alg».proof.Proof.Gen.Pre_finite_inputs
import proofs.«135750_j32238024524264_2_alg».proof.Proof.Gen.ReferenceIdeal.Run
import proofs.«135750_j32238024524264_2_alg».proof.Proof.Gen.ReferenceIdeal.Read
import proofs.«135750_j32238024524264_2_alg».proof.Proof.KernelValue
import proofs.«135750_j32238024524264_2_alg».proof.Proof.ReferenceValue
import proofs.«135750_j32238024524264_2_alg».proof.Proof.SageBridge
import proofs.«135750_j32238024524264_2_alg».proof.Proof.FiniteInputs
import Idealize.ShloMosaic.Adequacy
import Idealize.ShloMosaic.Init

noncomputable section

namespace Cert.Proof

open Idealize.ShloMosaic Idealize.ShloMosaic.TcCoe Idealize.SL.Sem

/-- The two programs compute the source column by the same operations on the edge array. -/
theorem src_agree (x1 : IVec Cert.KernelIdeal.S2x640000 32) :
    Cert.ReferenceIdeal.Read.val_main_v9 (F := Ideal) x1 = Cert.KernelIdeal.EdgeColumns.srcColOf x1 := rfl

/-- The two programs compute the destination column by the same operations on the edge array. -/
theorem dst_agree (x1 : IVec Cert.KernelIdeal.S2x640000 32) :
    Cert.ReferenceIdeal.Read.val_main_v12 (F := Ideal) x1 = Cert.KernelIdeal.EdgeColumns.dstColOf x1 := rfl

/-- The two programs' layer-1 row gathers have the same dimension numbers. -/
theorem gather_agree : Cert.ReferenceIdeal.gather_S100000x128_S640000x1_S640000x128_1_0_n_n_0_1_1128 = Cert.KernelIdeal.gather_S100000x128_S640000x1_S640000x128_1_0_n_n_0_1_1128 := rfl

/-- The two programs' layer-1 row scatters have the same dimension numbers. -/
theorem scatter_agree : Cert.ReferenceIdeal.scatter_S100000x128_S640000x1_S640000x128_1_0_0_1 = Cert.KernelIdeal.scatter_S100000x128_S640000x1_S640000x128_1_0_0_1 := rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing: the statement is `True`. -/
theorem preserves : Cert.preserves_Kernel_KernelIdeal := trivial

/-- From memories agreeing on the arguments both programs end with the same result: the kernel program's is the
    arrangement "project, then aggregate", the reference's "aggregate, then project", of arguments that are real. -/
theorem algebraic : Cert.algebraic_KernelIdeal_ReferenceIdeal := by
  intro m ρ m' ρ' hpre hagree
  refine ⟨fun c => Cert.KernelIdeal.KernelValue.resultK m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  obtain ⟨hx, hW1l, hb1, hW1r, hW2l⟩ := Cert.FiniteInputs.real_of_pre m hpre c
  rw [Cert.ReferenceIdeal.Read.val_main_v44_eq, a0, a1, a2, a3, a4, a5, a6, a7, Cert.ReferenceIdeal.RefValue.result_eq]
  unfold Cert.ReferenceIdeal.RefValue.srcIdx Cert.ReferenceIdeal.RefValue.dstIdx
  rw [src_agree, dst_agree, gather_agree, scatter_agree]
  exact (Cert.SageBridge.arrangements_agree
    Cert.KernelIdeal.gather_S100000x128_S640000x1_S640000x128_1_0_n_n_0_1_1128 Cert.KernelIdeal.scatter_S100000x128_S640000x1_S640000x128_1_0_0_1
    (Cert.KernelIdeal.gather_S100000x128_S640000x1_S640000x128_1_0_n_n_0_1_1128).wf (Cert.KernelIdeal.scatter_S100000x128_S640000x1_S640000x128_1_0_0_1).wf rfl rfl
    Cert.ReferenceIdeal.gather_S100000x256_S640000x1_S640000x256_1_0_n_n_0_1_1256 Cert.ReferenceIdeal.scatter_S100000x256_S640000x1_S640000x256_1_0_0_1
    (Cert.ReferenceIdeal.gather_S100000x256_S640000x1_S640000x256_1_0_n_n_0_1_1256).wf (Cert.ReferenceIdeal.scatter_S100000x256_S640000x1_S640000x256_1_0_0_1).wf rfl rfl
    Cert.KernelIdeal.gather_S100000x50_S640000x1_S640000x50_1_0_n_n_0_1_150 Cert.KernelIdeal.scatter_S100000x50_S640000x1_S640000x50_1_0_0_1
    (Cert.KernelIdeal.gather_S100000x50_S640000x1_S640000x50_1_0_n_n_0_1_150).wf (Cert.KernelIdeal.scatter_S100000x50_S640000x1_S640000x50_1_0_0_1).wf rfl rfl
    (Cert.KernelIdeal.EdgeColumns.srcColOf (m ((c.tc : Thread Cert.KernelIdeal.nD Cert.KernelIdeal.τ).loc Cert.KernelIdeal.main_arg1)))
    (Cert.KernelIdeal.EdgeColumns.dstColOf (m ((c.tc : Thread Cert.KernelIdeal.nD Cert.KernelIdeal.τ).loc Cert.KernelIdeal.main_arg1)))
    (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg3))
    (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg6))
    hx hW1l hb1 hW1r hW2l).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
